-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x65536 : Shape := ⟨2, ![512, 65536]⟩
abbrev S65536 : Shape := ⟨1, ![65536]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x65536 : S_.BroadcastsInDim S512x65536 (![] : Fin 0 → Fin S512x65536.rank)
  reducesTo_S512x65536_S_d0_1 : S512x65536.ReducesTo [0, 1] S_
  bcast_S_S65536 : S_.BroadcastsInDim S65536 (![] : Fin 0 → Fin S65536.rank)
  reducesTo_S65536_S_d0 : S65536.ReducesTo [0] S_

variable [Facts]

def fn_part2 {F : FTy → Type} [FloatOps F] (main_v28 : IVec S_ 1) (main_v32 : FVec F S512x65536 .f32) (main_v33 : FVec F S512x65536 .f32) : IVec S_ 1 :=
  let main_v34 : IVec S512x65536 1 := cmpf .ogt main_v32 main_v33
  let main_c_12 : IVec S_ 1 := constantI S_ 1 1#1
  let main_v35 : IVec S_ 1 := (fun x v => Host.reduce IntOp.andi x v reducesTo_S512x65536_S_d0_1 h_S_) main_v34 main_c_12
  let main_v36 : IVec S_ 1 := andi main_v28 main_v35
  main_v36

def fn_part1 {F : FTy → Type} [FloatOps F] (main_arg2 : FVec F S512x65536 .f32) (main_arg3 : FVec F S512x65536 .f32) (main_arg4 : FVec F S65536 .f32) (main_arg5 : FVec F S65536 .f32) (main_v13 : IVec S_ 1) (main_v16 : IVec S512x65536 1) : IVec S_ 1 :=
  let main_c_5 : IVec S_ 1 := constantI S_ 1 1#1
  let main_v17 : IVec S_ 1 := (fun x v => Host.reduce IntOp.andi x v reducesTo_S512x65536_S_d0_1 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S65536 .f32 := Host.absf main_arg5
  let main_cst_8 : FVec F S_ .f32 := constant S_ .f32 0x7F800000#32
  let main_v25 : FVec F S65536 .f32 := broadcastInDim S65536 ![] bcast_S_S65536 main_cst_8
  let main_v26 : IVec S65536 1 := cmpf .olt main_v24 main_v25
  let main_c_9 : IVec S_ 1 := constantI S_ 1 1#1
  let main_v27 : IVec S_ 1 := (fun x v => Host.reduce IntOp.andi x v reducesTo_S65536_S_d0 h_S_) main_v26 main_c_9
  let main_v28 : IVec S_ 1 := andi main_v23 main_v27
  let main_v29 : FVec F S512x65536 .f32 := mulf main_arg3 main_arg3
  let main_v30 : FVec F S512x65536 .f32 := mulf main_v29 main_arg2
  let main_cst_10 : FVec F S_ .f32 := constant S_ .f32 0x3F800000#32
  let main_v31 : FVec F S512x65536 .f32 := broadcastInDim S512x65536 ![] bcast_S_S512x65536 main_cst_10
  let main_v32 : FVec F S512x65536 .f32 := addf main_v30 main_v31
  let main_cst_11 : FVec F S_ .f32 := constant S_ .f32 0x00000000#32
  let main_v33 : FVec F S512x65536 .f32 := broadcastInDim S512x65536 ![] bcast_S_S512x65536 main_cst_11
  fn_part2 (F := F) main_v28 main_v32 main_v33

def fn {F : FTy → Type} [FloatOps F] (main_arg0 : FVec F S512x256 .f32) (main_arg1 : FVec F S512x65536 .f32) (main_arg2 : FVec F S512x65536 .f32) (main_arg3 : FVec F S512x65536 .f32) (main_arg4 : FVec F S65536 .f32) (main_arg5 : FVec F S65536 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  let main_v9 : FVec F S512x65536 .f32 := Host.absf main_arg2
  let main_cst_2 : FVec F S_ .f32 := constant S_ .f32 0x7F800000#32
  let main_v10 : FVec F S512x65536 .f32 := broadcastInDim S512x65536 ![] bcast_S_S512x65536 main_cst_2
  let main_v11 : IVec S512x65536 1 := cmpf .olt main_v9 main_v10
  let main_c_3 : IVec S_ 1 := constantI S_ 1 1#1
  let main_v12 : IVec S_ 1 := (fun x v => Host.reduce IntOp.andi x v reducesTo_S512x65536_S_d0_1 h_S_) main_v11 main_c_3
  let main_v13 : IVec S_ 1 := andi main_v8 main_v12
  let main_v14 : FVec F S512x65536 .f32 := Host.absf main_arg3
  let main_cst_4 : FVec F S_ .f32 := constant S_ .f32 0x7F800000#32
  let main_v15 : FVec F S512x65536 .f32 := broadcastInDim S512x65536 ![] bcast_S_S512x65536 main_cst_4
  let main_v16 : IVec S512x65536 1 := cmpf .olt main_v14 main_v15
  fn_part1 (F := F) main_arg2 main_arg3 main_arg4 main_arg5 main_v13 main_v16
-- ==== Kernel.lean ====
abbrev S512x256 : Shape := ⟨2, ![512, 256]⟩
abbrev S512x65536 : Shape := ⟨2, ![512, 65536]⟩
abbrev S65536 : Shape := ⟨1, ![65536]⟩
abbrev S512x256x256 : Shape := ⟨3, ![512, 256, 256]⟩
abbrev S1x256x256 : Shape := ⟨3, ![1, 256, 256]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S8 : Shape := ⟨1, ![8]⟩
abbrev S8x1x1 : Shape := ⟨3, ![8, 1, 1]⟩

abbrev nBuf : Space → Nat
  | .hbm => 17
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x65536, .f32⟩
  | .hbm, ⟨2, _⟩ => ⟨S512x65536, .f32⟩
  | .hbm, ⟨3, _⟩ => ⟨S512x65536, .f32⟩
  | .hbm, ⟨4, _⟩ => ⟨S65536, .f32⟩
  | .hbm, ⟨5, _⟩ => ⟨S65536, .f32⟩
  | .hbm, ⟨6, _⟩ => ⟨S512x256x256, .f32⟩
  | .hbm, ⟨7, _⟩ => ⟨S512x256x256, .f32⟩
  | .hbm, ⟨8, _⟩ => ⟨S512x256x256, .f32⟩
  | .hbm, ⟨9, _⟩ => ⟨S1x256x256, .f32⟩
  | .hbm, ⟨10, _⟩ => ⟨S1x256x256, .f32⟩
  | .hbm, ⟨11, _⟩ => ⟨S512x256x256, .f32⟩
  | .hbm, ⟨12, _⟩ => ⟨S512x256x256, .f32⟩
  | .hbm, ⟨13, _⟩ => ⟨S512x256x256, .f32⟩
  | .hbm, ⟨14, _⟩ => ⟨S512x65536, .f32⟩
  | .hbm, ⟨15, _⟩ => ⟨S512x65536, .f32⟩
  | .hbm, ⟨16, _⟩ => ⟨S512x65536, .f32⟩
  | .local _ .vmem, ⟨0, _⟩ => ⟨S8x256, .f32⟩
  | .local _ .vmem, ⟨1, _⟩ => ⟨S8x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S1x256x256, .f32⟩
  | .local _ .vmem, ⟨9, _⟩ => ⟨S1x256x256, .f32⟩
  | .local _ .vmem, ⟨10, _⟩ => ⟨S8x256x256, .f32⟩
  | .local _ .vmem, ⟨11, _⟩ => ⟨S8x256x256, .f32⟩
  | .local _ .vmem, ⟨12, _⟩ => ⟨S8x256x256, .f32⟩
  | .local _ .vmem, ⟨13, _⟩ => ⟨S8x256x256, .f32⟩
  | .local _ .vmem, ⟨14, _⟩ => ⟨S8x256x256, .f32⟩
  | .local _ .vmem, ⟨15, _⟩ => ⟨S8x256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S512x65536_S512x256x256 : S512x65536.ShapeCasts S512x256x256
  shapeCasts_S65536_S1x256x256 : S65536.ShapeCasts S1x256x256
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8 : S8x256x256.Reduces [1, 2] S8
  shapeCasts_S8_S8x1x1 : S8.ShapeCasts S8x1x1
  broadcasts_S8x1x1_S8x256x256 : S8x1x1.Broadcasts S8x256x256
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  broadcasts_S1x256x256_S8x256x256 : S1x256x256.Broadcasts S8x256x256
  shapeCasts_S512x256x256_S512x65536 : S512x256x256.ShapeCasts S512x65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S512x256.size a
  hwx0_0 : ∀ i : grid0.Coords, EltTy.bits .f32 = 32 ∨ (Rect.block (s := S512x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S512x256x256.size a
  hwx0_1 : ∀ i : grid0.Coords, EltTy.bits .f32 = 32 ∨ (Rect.block (s := S512x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S512x256x256.size a
  hwx0_2 : ∀ i : grid0.Coords, EltTy.bits .f32 = 32 ∨ (Rect.block (s := S512x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S512x256x256.size a
  hwx0_3 : ∀ i : grid0.Coords, EltTy.bits .f32 = 32 ∨ (Rect.block (s := S512x256x256) S8x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S1x256x256.size a
  hwx0_4 : ∀ i : grid0.Coords, EltTy.bits .f32 = 32 ∨ (Rect.block (s := S1x256x256) S1x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S1x256x256.size a
  hwx0_5 : ∀ i : grid0.Coords, EltTy.bits .f32 = 32 ∨ (Rect.block (s := S1x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x256.size a ≤ S512x256x256.size a
  hwx0_6 : ∀ i : grid0.Coords, EltTy.bits .f32 = 32 ∨ (Rect.block (s := S512x256x256) S8x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256x256.size a ≤ S512x256x256.size a
  hwx0_7 : ∀ i : grid0.Coords, EltTy.bits .f32 = 32 ∨ (Rect.block (s := S512x256x256) S8x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256x256.size a ≤ S512x256x256.size a
  hwx0_8 : ∀ i : grid0.Coords, EltTy.bits .f32 = 32 ∨ (Rect.block (s := S512x256x256) S8x256x256.size (cc0_transform_8 i) (hinb0_8 i)).WholeWords (EltTy.packing .f32)

variable [Facts₀]

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S8x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S8x256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S8x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x256 : Shape := ⟨2, ![512, 256]⟩
abbrev S512x65536 : Shape := ⟨2, ![512, 65536]⟩
abbrev S65536 : Shape := ⟨1, ![65536]⟩
abbrev S512x256x1 : Shape := ⟨3, ![512, 256, 1]⟩
abbrev S512x1x256 : Shape := ⟨3, ![512, 1, 256]⟩
abbrev S512x256x256 : Shape := ⟨3, ![512, 256, 256]⟩
abbrev S_ : Shape := ⟨0, ![]⟩
abbrev S512 : Shape := ⟨1, ![512]⟩
abbrev S512x1 : Shape := ⟨2, ![512, 1]⟩
abbrev S1x65536 : Shape := ⟨2, ![1, 65536]⟩

abbrev nBuf : Space → Nat
  | .hbm => 50
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x65536, .f32⟩
  | .hbm, ⟨2, _⟩ => ⟨S512x65536, .f32⟩
  | .hbm, ⟨3, _⟩ => ⟨S512x65536, .f32⟩
  | .hbm, ⟨4, _⟩ => ⟨S65536, .f32⟩
  | .hbm, ⟨5, _⟩ => ⟨S65536, .f32⟩
  | .hbm, ⟨6, _⟩ => ⟨S512x256x1, .f32⟩
  | .hbm, ⟨7, _⟩ => ⟨S512x1x256, .f32⟩
  | .hbm, ⟨8, _⟩ => ⟨S512x256x256, .f32⟩
  | .hbm, ⟨9, _⟩ => ⟨S512x256x256, .f32⟩
  | .hbm, ⟨10, _⟩ => ⟨S512x256x256, .f32⟩
  | .hbm, ⟨11, _⟩ => ⟨S512x65536, .f32⟩
  | .hbm, ⟨12, _⟩ => ⟨S512x65536, .f32⟩
  | .hbm, ⟨13, _⟩ => ⟨S512x65536, .f32⟩
  | .hbm, ⟨14, _⟩ => ⟨S512x65536, .f32⟩
  | .hbm, ⟨15, _⟩ => ⟨S512x65536, .f32⟩
  | .hbm, ⟨16, _⟩ => ⟨S_, .f32⟩
  | .hbm, ⟨17, _⟩ => ⟨S512x65536, .f32⟩
  | .hbm, ⟨18, _⟩ => ⟨S512x65536, .f32⟩
  | .hbm, ⟨19, _⟩ => ⟨S512x65536, .f32⟩
  | .hbm, ⟨20, _⟩ => ⟨S512x65536, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x65536, .f32⟩
  | .hbm, ⟨28, _⟩ => ⟨S512x65536, .f32⟩
  | .hbm, ⟨29, _⟩ => ⟨S512x65536, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S512x65536, .f32⟩
  | .hbm, ⟨37, _⟩ => ⟨S512x65536, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x65536, .f32⟩
  | .hbm, ⟨43, _⟩ => ⟨S512x65536, .f32⟩
  | .hbm, ⟨44, _⟩ => ⟨S1x65536, .f32⟩
  | .hbm, ⟨45, _⟩ => ⟨S512x65536, .f32⟩
  | .hbm, ⟨46, _⟩ => ⟨S512x65536, .f32⟩
  | .hbm, ⟨47, _⟩ => ⟨S1x65536, .f32⟩
  | .hbm, ⟨48, _⟩ => ⟨S512x65536, .f32⟩
  | .hbm, ⟨49, _⟩ => ⟨S512x65536, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S512x256_S512x256x1_0_1 : S512x256.BroadcastsInDim S512x256x1 (![0, 1] : Fin 2 → Fin S512x256x1.rank)
  bcast_S512x256_S512x1x256_0_2 : S512x256.BroadcastsInDim S512x1x256 (![0, 2] : Fin 2 → Fin S512x1x256.rank)
  bcast_S512x256x1_S512x256x256_0_1_2 : S512x256x1.BroadcastsInDim S512x256x256 (![0, 1, 2] : Fin 3 → Fin S512x256x256.rank)
  bcast_S512x1x256_S512x256x256_0_1_2 : S512x1x256.BroadcastsInDim S512x256x256 (![0, 1, 2] : Fin 3 → Fin S512x256x256.rank)
  shapeCasts_S512x256x256_S512x65536 : S512x256x256.ShapeCasts S512x65536
  bcast_S_S512x65536 : S_.BroadcastsInDim S512x65536 (![] : Fin 0 → Fin S512x65536.rank)
  reducesTo_S512x65536_S512_d1 : S512x65536.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x65536_0_1 : S512x1.BroadcastsInDim S512x65536 (![0, 1] : Fin 2 → Fin S512x65536.rank)
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)

variable [Facts₀]

class Facts : Prop extends Facts₀ where

variable [Facts]
-- ==== Proof.KLayout.lean ====
import proofs.«135125_j50337016709331_2_alg».proof.Proof.Gen.KernelIdeal.Frame
import Idealize.ShloMosaic.Lib.Pipeline.Value
import Idealize.ShloMosaic.Lib.StableHlo.Run
import Idealize.ShloMosaic.Lib.ValueIdx

/-!
  The kernel's three result arrays as whole-array functions of the arrays the launch finds.

  The launch has 64 grid points; point `t` stages batch rows `8t … 8t+7` of every per-batch operand (all 256 × 256
  entries of each row) and the single 256 × 256 plane of the two per-feature operands, and writes back rows
  `8t … 8t+7` of each result. So entry `(B, r, c)` of a result is entry `(B mod 8, r, c)` of what the body computes
  from the blocks at point `B / 8`, the blocks of the 64 points tile each result, and the three flat results the
  program returns are these arrays re-laid row-major from `[512, 256, 256]` to `[512, 65536]`.
-/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The grid point whose blocks hold batch row `i 0`: eight rows to a point. -/
def pt (i : S512x256x256.Idx) : Fin cfg0.N :=
  ⟨(i 0).val / 8, by have h : (i 0).val < 512 := (i 0).isLt; rw [show cfg0.N = 64 from N_0]; omega⟩

/-- The place of array index `i` inside that point's block: the row modulo eight, the two plane coordinates kept. -/
def inb (i : S512x256x256.Idx) : S8x256x256.Idx :=
  ix3 ⟨(i 0).val % 8, Nat.mod_lt _ (by decide)⟩ ⟨(i 1).val, (i 1).isLt⟩ ⟨(i 2).val, (i 2).isLt⟩

/-- The six input blocks at grid point `t`, each at its literal shape: the state's rows, the first and the second
    accumulator, the decay weights, the scale and the shift. -/
def ib0 (c : Dev nD) (t : Fin cfg0.N) : Vec F S8x256 .f32 := iblk m c 0 t
def ib1 (c : Dev nD) (t : Fin cfg0.N) : Vec F S8x256x256 .f32 := iblk m c 1 t
def ib2 (c : Dev nD) (t : Fin cfg0.N) : Vec F S8x256x256 .f32 := iblk m c 2 t
def ib3 (c : Dev nD) (t : Fin cfg0.N) : Vec F S8x256x256 .f32 := iblk m c 3 t
def ib4 (c : Dev nD) (t : Fin cfg0.N) : Vec F S1x256x256 .f32 := iblk m c 4 t
def ib5 (c : Dev nD) (t : Fin cfg0.N) : Vec F S1x256x256 .f32 := iblk m c 5 t

/-- The normalized result of the body at grid point `t`, from the six input blocks there. -/
def res6 (c : Dev nD) (t : Fin cfg0.N) : Vec F S8x256x256 .f32 :=
  k0_pay1 (k0_pay5 (ib0 m c t) (ib3 m c t) (ib1 m c t) (ib2 m c t)) (ib4 m c t) (ib5 m c t)
/-- The updated first accumulator of the body at grid point `t`. -/
def res7 (c : Dev nD) (t : Fin cfg0.N) : Vec F S8x256x256 .f32 :=
  k0_pay3 (ib0 m c t) (ib3 m c t) (ib1 m c t)
/-- The updated second accumulator of the body at grid point `t`. -/
def res8 (c : Dev nD) (t : Fin cfg0.N) : Vec F S8x256x256 .f32 :=
  k0_pay4 (ib3 m c t) (ib2 m c t)

/-- Result window 6's array as one function: entry `i` is the body's result at the point holding row `i 0`, read at
    `i`'s place in the block. -/
def G6 (c : Dev nD) : S512x256x256.Idx → Elt F .f32 := fun i => res6 m c (pt i) (inb i)

/-- Window 6's block index at point `t` is `(t, 0, 0)`. -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- What point `t` writes back to window 6's array is block `t` of `G6`. -/
theorem flushed6_eq (c : Dev nD) (t : Fin cfg0.N) :
    (dats m 0 c).flushed 6 t = ((cfg0.win 6).blk t).view.read (Elt F) (G6 m c) := by
  show (cfg0.win 6).cut (grid0.coords t) ((dats m 0 c).after 6 t) = _
  rw [after0_6]
  unfold out0_6
  rw [View.canon_unit_zero hz3]
  simp only [View.ld_unit_zero (S := S8x256x256) hz3, View.ld_unit_zero (S := S8x256) hz2, View.ld_unit_zero (S := S1x256x256) hz3]
  obtain ⟨e0, e1, e2⟩ := idx6 t
  funext j
  show res6 m c t j = res6 m c (pt (((cfg0.win 6).blk t).view.emb j)) (inb (((cfg0.win 6).blk t).view.emb j))
  have hp : pt (((cfg0.win 6).blk t).view.emb j) = t := Fin.ext (by
    show (win0_6.index t (0 : Fin 3) * 8 + 1 * (j 0).val) / 8 = t.val
    have hj : (j 0).val < 8 := (j 0).isLt; omega)
  have hi : inb (((cfg0.win 6).blk t).view.emb j) = j := by
    funext a; apply Fin.ext
    match a with
    | ⟨0, _⟩ => show (win0_6.index t (0 : Fin 3) * 8 + 1 * (j 0).val) % 8 = (j 0).val; have hj : (j 0).val < 8 := (j 0).isLt; omega
    | ⟨1, _⟩ => show win0_6.index t (1 : Fin 3) * 256 + 1 * (j 1).val = (j 1).val; omega
    | ⟨2, _⟩ => show win0_6.index t (2 : Fin 3) * 256 + 1 * (j 2).val = (j 2).val; omega
  rw [hp, hi]

/-- An index of window 6's array is in point `t`'s block iff each coordinate is in the block's range. -/
theorem mem_blk6 (t : Fin cfg0.N) (i : S512x256x256.Idx) :
    i ∈ ((cfg0.win 6).blk t).view.set ↔ ∀ a : Fin 3, win0_6.index t a * S8x256x256.size a ≤ (i a).val ∧ (i a).val < win0_6.index t a * S8x256x256.size a + S8x256x256.size a := by
  show i ∈ ((View.whole main_v5_0).slice (win0_6.rect t)).set ↔ _
  rw [View.set_slice_whole, Rect.mem_set_unit]
  exact Iff.rfl

/-- Every index of window 6's array is in the block of the point holding its row. -/
theorem cover6 (i : S512x256x256.Idx) : ∃ t : Fin cfg0.N, (cfg0.win 6).flush t = true ∧ i ∈ ((cfg0.win 6).blk t).view.set := by
  refine ⟨pt i, flush0_6 (pt i), ?_⟩
  rw [mem_blk6]
  obtain ⟨e0, e1, e2⟩ := idx6 (pt i)
  have q0 : (pt i).val = (i 0).val / 8 := rfl
  intro a
  match a with
  | ⟨0, _⟩ => show win0_6.index (pt i) (0 : Fin 3) * 8 ≤ (i 0).val ∧ (i 0).val < win0_6.index (pt i) (0 : Fin 3) * 8 + 8; omega
  | ⟨1, _⟩ => show win0_6.index (pt i) (1 : Fin 3) * 256 ≤ (i 1).val ∧ (i 1).val < win0_6.index (pt i) (1 : Fin 3) * 256 + 256; have h : (i 1).val < 256 := (i 1).isLt; omega
  | ⟨2, _⟩ => show win0_6.index (pt i) (2 : Fin 3) * 256 ≤ (i 2).val ∧ (i 2).val < win0_6.index (pt i) (2 : Fin 3) * 256 + 256; have h : (i 2).val < 256 := (i 2).isLt; omega

/-- Window 6's array after the run is `G6`. -/
theorem final6 (c : Dev nD) : (dats m 0 c).arrAt 6 cfg0.N = G6 m c :=
  (dats m 0 c).arrAt_eq_of_cover 6 (G6 m c) (fun t _ => flushed6_eq m c t) (cover6)

/-- The flat result the program returns for window 6: the array re-laid row-major to `[512, 65536]`. -/
theorem tail6 (c : Dev nD) : Pipeline.afterTail₀ cfgs (dats m) 0 (V0 m) [hostOps1] c main_v6
    = shapeCast S512x65536 (G6 m c) shapeCasts_S512x256x256_S512x65536 := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 6).trans (final6 m c)
  funext i
  exact congrFun (congrArg (fun v => shapeCast S512x65536 v shapeCasts_S512x256x256_S512x65536) e) i

/-- Result window 7's array as one function: entry `i` is the body's result at the point holding row `i 0`, read at
    `i`'s place in the block. -/
def G7 (c : Dev nD) : S512x256x256.Idx → Elt F .f32 := fun i => res7 m c (pt i) (inb i)

/-- Window 7's block index at point `t` is `(t, 0, 0)`. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- What point `t` writes back to window 7's array is block `t` of `G7`. -/
theorem flushed7_eq (c : Dev nD) (t : Fin cfg0.N) :
    (dats m 0 c).flushed 7 t = ((cfg0.win 7).blk t).view.read (Elt F) (G7 m c) := by
  show (cfg0.win 7).cut (grid0.coords t) ((dats m 0 c).after 7 t) = _
  rw [after0_7]
  unfold out0_7
  rw [View.canon_unit_zero hz3]
  simp only [View.ld_unit_zero (S := S8x256x256) hz3, View.ld_unit_zero (S := S8x256) hz2, View.ld_unit_zero (S := S1x256x256) hz3]
  obtain ⟨e0, e1, e2⟩ := idx7 t
  funext j
  show res7 m c t j = res7 m c (pt (((cfg0.win 7).blk t).view.emb j)) (inb (((cfg0.win 7).blk t).view.emb j))
  have hp : pt (((cfg0.win 7).blk t).view.emb j) = t := Fin.ext (by
    show (win0_7.index t (0 : Fin 3) * 8 + 1 * (j 0).val) / 8 = t.val
    have hj : (j 0).val < 8 := (j 0).isLt; omega)
  have hi : inb (((cfg0.win 7).blk t).view.emb j) = j := by
    funext a; apply Fin.ext
    match a with
    | ⟨0, _⟩ => show (win0_7.index t (0 : Fin 3) * 8 + 1 * (j 0).val) % 8 = (j 0).val; have hj : (j 0).val < 8 := (j 0).isLt; omega
    | ⟨1, _⟩ => show win0_7.index t (1 : Fin 3) * 256 + 1 * (j 1).val = (j 1).val; omega
    | ⟨2, _⟩ => show win0_7.index t (2 : Fin 3) * 256 + 1 * (j 2).val = (j 2).val; omega
  rw [hp, hi]

/-- An index of window 7's array is in point `t`'s block iff each coordinate is in the block's range. -/
theorem mem_blk7 (t : Fin cfg0.N) (i : S512x256x256.Idx) :
    i ∈ ((cfg0.win 7).blk t).view.set ↔ ∀ a : Fin 3, win0_7.index t a * S8x256x256.size a ≤ (i a).val ∧ (i a).val < win0_7.index t a * S8x256x256.size a + S8x256x256.size a := by
  show i ∈ ((View.whole main_v5_1).slice (win0_7.rect t)).set ↔ _
  rw [View.set_slice_whole, Rect.mem_set_unit]
  exact Iff.rfl

/-- Every index of window 7's array is in the block of the point holding its row. -/
theorem cover7 (i : S512x256x256.Idx) : ∃ t : Fin cfg0.N, (cfg0.win 7).flush t = true ∧ i ∈ ((cfg0.win 7).blk t).view.set := by
  refine ⟨pt i, flush0_7 (pt i), ?_⟩
  rw [mem_blk7]
  obtain ⟨e0, e1, e2⟩ := idx7 (pt i)
  have q0 : (pt i).val = (i 0).val / 8 := rfl
  intro a
  match a with
  | ⟨0, _⟩ => show win0_7.index (pt i) (0 : Fin 3) * 8 ≤ (i 0).val ∧ (i 0).val < win0_7.index (pt i) (0 : Fin 3) * 8 + 8; omega
  | ⟨1, _⟩ => show win0_7.index (pt i) (1 : Fin 3) * 256 ≤ (i 1).val ∧ (i 1).val < win0_7.index (pt i) (1 : Fin 3) * 256 + 256; have h : (i 1).val < 256 := (i 1).isLt; omega
  | ⟨2, _⟩ => show win0_7.index (pt i) (2 : Fin 3) * 256 ≤ (i 2).val ∧ (i 2).val < win0_7.index (pt i) (2 : Fin 3) * 256 + 256; have h : (i 2).val < 256 := (i 2).isLt; omega

/-- Window 7's array after the run is `G7`. -/
theorem final7 (c : Dev nD) : (dats m 0 c).arrAt 7 cfg0.N = G7 m c :=
  (dats m 0 c).arrAt_eq_of_cover 7 (G7 m c) (fun t _ => flushed7_eq m c t) (cover7)

/-- The flat result the program returns for window 7: the array re-laid row-major to `[512, 65536]`. -/
theorem tail7 (c : Dev nD) : Pipeline.afterTail₀ cfgs (dats m) 0 (V0 m) [hostOps1] c main_v7
    = shapeCast S512x65536 (G7 m c) shapeCasts_S512x256x256_S512x65536 := by
  unfold Pipeline.afterTail₀
  show StableHlo.after hostOps1 _ (Proc.devRef .tc main_v7) = _
  after_results
  have e := (Pipeline.withArrays_arr spec0 launch0.win.arr_inj c (V0 m c) (fun w => (dats m 0 c).arrAt w cfg0.N) 7).trans (final7 m c)
  funext i
  exact congrFun (congrArg (fun v => shapeCast S512x65536 v shapeCasts_S512x256x256_S512x65536) e) i

/-- Result window 8's array as one function: entry `i` is the body's result at the point holding row `i 0`, read at
    `i`'s place in the block. -/
def G8 (c : Dev nD) : S512x256x256.Idx → Elt F .f32 := fun i => res8 m c (pt i) (inb i)

/-- Window 8's block index at point `t` is `(t, 0, 0)`. -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- What point `t` writes back to window 8's array is block `t` of `G8`. -/
theorem flushed8_eq (c : Dev nD) (t : Fin cfg0.N) :
    (dats m 0 c).flushed 8 t = ((cfg0.win 8).blk t).view.read (Elt F) (G8 m c) := by
  show (cfg0.win 8).cut (grid0.coords t) ((dats m 0 c).after 8 t) = _
  rw [after0_8]
  unfold out0_8
  rw [View.canon_unit_zero hz3]
  simp only [View.ld_unit_zero (S := S8x256x256) hz3, View.ld_unit_zero (S := S8x256) hz2, View.ld_unit_zero (S := S1x256x256) hz3]
  obtain ⟨e0, e1, e2⟩ := idx8 t
  funext j
  show res8 m c t j = res8 m c (pt (((cfg0.win 8).blk t).view.emb j)) (inb (((cfg0.win 8).blk t).view.emb j))
  have hp : pt (((cfg0.win 8).blk t).view.emb j) = t := Fin.ext (by
    show (win0_8.index t (0 : Fin 3) * 8 + 1 * (j 0).val) / 8 = t.val
    have hj : (j 0).val < 8 := (j 0).isLt; omega)
  have hi : inb (((cfg0.win 8).blk t).view.emb j) = j := by
    funext a; apply Fin.ext
    match a with
    | ⟨0, _⟩ => show (win0_8.index t (0 : Fin 3) * 8 + 1 * (j 0).val) % 8 = (j 0).val; have hj : (j 0).val < 8 := (j 0).isLt; omega
    | ⟨1, _⟩ => show win0_8.index t (1 : Fin 3) * 256 + 1 * (j 1).val = (j 1).val; omega
    | ⟨2, _⟩ => show win0_8.index t (2 : Fin 3) * 256 + 1 * (j 2).val = (j 2).val; omega
  rw [hp, hi]

/-- An index of window 8's array is in point `t`'s block iff each coordinate is in the block's range. -/
theorem mem_blk8 (t : Fin cfg0.N) (i : S512x256x256.Idx) :
    i ∈ ((cfg0.win 8).blk t).view.set ↔ ∀ a : Fin 3, win0_8.index t a * S8x256x256.size a ≤ (i a).val ∧ (i a).val < win0_8.index t a * S8x256x256.size a + S8x256x256.size a := by
  show i ∈ ((View.whole main_v5_2).slice (win0_8.rect t)).set ↔ _
  rw [View.set_slice_whole, Rect.mem_set_unit]
  exact Iff.rfl

/-- Every index of window 8's array is in the block of the point holding its row. -/
theorem cover8 (i : S512x256x256.Idx) : ∃ t : Fin cfg0.N, (cfg0.win 8).flush t = true ∧ i ∈ ((cfg0.win 8).blk t).view.set := by
  refine ⟨pt i, flush0_8 (pt i), ?_⟩
  rw [mem_blk8]
  obtain ⟨e0, e1, e2⟩ := idx8 (pt i)
  have q0 : (pt i).val = (i 0).val / 8 := rfl
  intro a
  match a with
  | ⟨0, _⟩ => show win0_8.index (pt i) (0 : Fin 3) * 8 ≤ (i 0).val ∧ (i 0).val < win0_8.index (pt i) (0 : Fin 3) * 8 + 8; omega
  | ⟨1, _⟩ => show win0_8.index (pt i) (1 : Fin 3) * 256 ≤ (i 1).val ∧ (i 1).val < win0_8.index (pt i) (1 : Fin 3) * 256 + 256; have h : (i 1).val < 256 := (i 1).isLt; omega
  | ⟨2, _⟩ => show win0_8.index (pt i) (2 : Fin 3) * 256 ≤ (i 2).val ∧ (i 2).val < win0_8.index (pt i) (2 : Fin 3) * 256 + 256; have h : (i 2).val < 256 := (i 2).isLt; omega

/-- Window 8's array after the run is `G8`. -/
theorem final8 (c : Dev nD) : (dats m 0 c).arrAt 8 cfg0.N = G8 m c :=
  (dats m 0 c).arrAt_eq_of_cover 8 (G8 m c) (fun t _ => flushed8_eq m c t) (cover8)

/-- The flat result the program returns for window 8: the array re-laid row-major to `[512, 65536]`. -/
theorem tail8 (c : Dev nD) : Pipeline.afterTail₀ cfgs (dats m) 0 (V0 m) [hostOps1] c main_v8
    = shapeCast S512x65536 (G8 m c) shapeCasts_S512x256x256_S512x65536 := by
  unfold Pipeline.afterTail₀
  show StableHlo.after hostOps1 _ (Proc.devRef .tc main_v8) = _
  after_results
  have e := (Pipeline.withArrays_arr spec0 launch0.win.arr_inj c (V0 m c) (fun w => (dats m 0 c).arrAt w cfg0.N) 8).trans (final8 m c)
  funext i
  exact congrFun (congrArg (fun v => shapeCast S512x65536 v shapeCasts_S512x256x256_S512x65536) e) i

/-! ## The input blocks read at an index -/

theorem t_lt (t : Fin cfg0.N) : t.val < 64 := by have h := t.isLt; have e : cfg0.N = 64 := N_0; omega

/-- The arrays the launch finds for the three per-batch operands and the two per-feature operands are the
    arguments re-laid row-major. -/
theorem pre1 (c : Dev nD) : (V m c main_v0 : S512x256x256.Idx → Elt F .f32)
    = shapeCast S512x256x256 (m ((c : Thread nD τ).loc main_arg1) : S512x65536.Idx → Elt F .f32) shapeCasts_S512x65536_S512x256x256 := by
  show StableHlo.after hostOps0 (fun b => m (c, b)) (Proc.devRef .tc main_v0) = _
  after_results; rfl
theorem pre2 (c : Dev nD) : (V m c main_v1 : S512x256x256.Idx → Elt F .f32)
    = shapeCast S512x256x256 (m ((c : Thread nD τ).loc main_arg2) : S512x65536.Idx → Elt F .f32) shapeCasts_S512x65536_S512x256x256 := by
  show StableHlo.after hostOps0 (fun b => m (c, b)) (Proc.devRef .tc main_v1) = _
  after_results; rfl
theorem pre3 (c : Dev nD) : (V m c main_v2 : S512x256x256.Idx → Elt F .f32)
    = shapeCast S512x256x256 (m ((c : Thread nD τ).loc main_arg3) : S512x65536.Idx → Elt F .f32) shapeCasts_S512x65536_S512x256x256 := by
  show StableHlo.after hostOps0 (fun b => m (c, b)) (Proc.devRef .tc main_v2) = _
  after_results; rfl
theorem pre4 (c : Dev nD) : (V m c main_v3 : S1x256x256.Idx → Elt F .f32)
    = shapeCast S1x256x256 (m ((c : Thread nD τ).loc main_arg4) : S65536.Idx → Elt F .f32) shapeCasts_S65536_S1x256x256 := by
  show StableHlo.after hostOps0 (fun b => m (c, b)) (Proc.devRef .tc main_v3) = _
  after_results; rfl
theorem pre5 (c : Dev nD) : (V m c main_v4 : S1x256x256.Idx → Elt F .f32)
    = shapeCast S1x256x256 (m ((c : Thread nD τ).loc main_arg5) : S65536.Idx → Elt F .f32) shapeCasts_S65536_S1x256x256 := by
  show StableHlo.after hostOps0 (fun b => m (c, b)) (Proc.devRef .tc main_v4) = _
  after_results; rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Entry `(b, r)` of the first operand's block at point `t` is entry `(8t + b, r)` of the first argument. -/
theorem blk0 (c : Dev nD) (t : Fin cfg0.N) (y : S8x256.Idx) :
    ib0 m c t y
      = (m ((c : Thread nD τ).loc main_arg0) : S512x256.Idx → Elt F .f32)
          (ix2 ⟨t.val * 8 + (y 0).val, by have h1 := t_lt t; have h2 : (y 0).val < 8 := (y 0).isLt; omega⟩ ⟨(y 1).val, (y 1).isLt⟩) := by
  obtain ⟨e0, e1⟩ := idx0 t
  show V m c main_arg0 (((cfg0.win 0).blk t).view.emb y) = _
  rw [V_main_arg0]
  refine congrArg _ (funext fun a => Fin.ext ?_)
  match a with
  | ⟨0, _⟩ => show win0_0.index t (0 : Fin 2) * 8 + 1 * (y 0).val = t.val * 8 + (y 0).val; omega
  | ⟨1, _⟩ => show win0_0.index t (1 : Fin 2) * 256 + 1 * (y 1).val = (y 1).val; omega

/-- Entry `(b, r, c)` of operand 1's block at point `t` is entry `(8t + b, 256 r + c)` of its argument. -/
theorem blk1 (c : Dev nD) (t : Fin cfg0.N) (y : S8x256x256.Idx) :
    ib1 m c t y
      = (m ((c : Thread nD τ).loc main_arg1) : S512x65536.Idx → Elt F .f32)
          (ix2 ⟨t.val * 8 + (y 0).val, by have h1 := t_lt t; have h2 : (y 0).val < 8 := (y 0).isLt; omega⟩
            ⟨(y 1).val * 256 + (y 2).val, by have h1 : (y 1).val < 256 := (y 1).isLt; have h2 : (y 2).val < 256 := (y 2).isLt; omega⟩) := by
  obtain ⟨e0, e1, e2⟩ := idx1 t
  show V m c main_v0 (((cfg0.win 1).blk t).view.emb y) = _
  rw [pre1 m c]
  refine shapeCast_apply (s := S512x65536) (t := S512x256x256) _ _ _ _ ?_
  rewrite [Shape.rowMajor_val_three, Shape.rowMajor_val_two]
  show (t.val * 8 + (y 0).val) * 65536 + ((y 1).val * 256 + (y 2).val)
    = ((win0_1.index t (0 : Fin 3) * 8 + 1 * (y 0).val) * 256 + (win0_1.index t (1 : Fin 3) * 256 + 1 * (y 1).val)) * 256 + (win0_1.index t (2 : Fin 3) * 256 + 1 * (y 2).val)
  have h1 : (y 1).val < 256 := (y 1).isLt; have h2 : (y 2).val < 256 := (y 2).isLt; omega

/-- Entry `(b, r, c)` of operand 2's block at point `t` is entry `(8t + b, 256 r + c)` of its argument. -/
theorem blk2 (c : Dev nD) (t : Fin cfg0.N) (y : S8x256x256.Idx) :
    ib2 m c t y
      = (m ((c : Thread nD τ).loc main_arg2) : S512x65536.Idx → Elt F .f32)
          (ix2 ⟨t.val * 8 + (y 0).val, by have h1 := t_lt t; have h2 : (y 0).val < 8 := (y 0).isLt; omega⟩
            ⟨(y 1).val * 256 + (y 2).val, by have h1 : (y 1).val < 256 := (y 1).isLt; have h2 : (y 2).val < 256 := (y 2).isLt; omega⟩) := by
  obtain ⟨e0, e1, e2⟩ := idx2 t
  show V m c main_v1 (((cfg0.win 2).blk t).view.emb y) = _
  rw [pre2 m c]
  refine shapeCast_apply (s := S512x65536) (t := S512x256x256) _ _ _ _ ?_
  rewrite [Shape.rowMajor_val_three, Shape.rowMajor_val_two]
  show (t.val * 8 + (y 0).val) * 65536 + ((y 1).val * 256 + (y 2).val)
    = ((win0_2.index t (0 : Fin 3) * 8 + 1 * (y 0).val) * 256 + (win0_2.index t (1 : Fin 3) * 256 + 1 * (y 1).val)) * 256 + (win0_2.index t (2 : Fin 3) * 256 + 1 * (y 2).val)
  have h1 : (y 1).val < 256 := (y 1).isLt; have h2 : (y 2).val < 256 := (y 2).isLt; omega

/-- Entry `(b, r, c)` of operand 3's block at point `t` is entry `(8t + b, 256 r + c)` of its argument. -/
theorem blk3 (c : Dev nD) (t : Fin cfg0.N) (y : S8x256x256.Idx) :
    ib3 m c t y
      = (m ((c : Thread nD τ).loc main_arg3) : S512x65536.Idx → Elt F .f32)
          (ix2 ⟨t.val * 8 + (y 0).val, by have h1 := t_lt t; have h2 : (y 0).val < 8 := (y 0).isLt; omega⟩
            ⟨(y 1).val * 256 + (y 2).val, by have h1 : (y 1).val < 256 := (y 1).isLt; have h2 : (y 2).val < 256 := (y 2).isLt; omega⟩) := by
  obtain ⟨e0, e1, e2⟩ := idx3 t
  show V m c main_v2 (((cfg0.win 3).blk t).view.emb y) = _
  rw [pre3 m c]
  refine shapeCast_apply (s := S512x65536) (t := S512x256x256) _ _ _ _ ?_
  rewrite [Shape.rowMajor_val_three, Shape.rowMajor_val_two]
  show (t.val * 8 + (y 0).val) * 65536 + ((y 1).val * 256 + (y 2).val)
    = ((win0_3.index t (0 : Fin 3) * 8 + 1 * (y 0).val) * 256 + (win0_3.index t (1 : Fin 3) * 256 + 1 * (y 1).val)) * 256 + (win0_3.index t (2 : Fin 3) * 256 + 1 * (y 2).val)
  have h1 : (y 1).val < 256 := (y 1).isLt; have h2 : (y 2).val < 256 := (y 2).isLt; omega

/-- Entry `(0, r, c)` of operand 4's one block is entry `256 r + c` of its argument, at every point. -/
theorem blk4 (c : Dev nD) (t : Fin cfg0.N) (y : S1x256x256.Idx) :
    ib4 m c t y
      = (m ((c : Thread nD τ).loc main_arg4) : S65536.Idx → Elt F .f32)
          (ix1 ⟨(y 1).val * 256 + (y 2).val, by have h1 : (y 1).val < 256 := (y 1).isLt; have h2 : (y 2).val < 256 := (y 2).isLt; omega⟩) := by
  obtain ⟨e0, e1, e2⟩ := idx4 t
  show V m c main_v3 (((cfg0.win 4).blk t).view.emb y) = _
  rw [pre4 m c]
  refine shapeCast_apply (s := S65536) (t := S1x256x256) _ _ _ _ ?_
  rewrite [Shape.rowMajor_val_three, Shape.rowMajor_val_one]
  show (y 1).val * 256 + (y 2).val
    = ((win0_4.index t (0 : Fin 3) * 1 + 1 * (y 0).val) * 256 + (win0_4.index t (1 : Fin 3) * 256 + 1 * (y 1).val)) * 256 + (win0_4.index t (2 : Fin 3) * 256 + 1 * (y 2).val)
  have h0 : (y 0).val < 1 := (y 0).isLt; have h1 : (y 1).val < 256 := (y 1).isLt; have h2 : (y 2).val < 256 := (y 2).isLt; omega

/-- Entry `(0, r, c)` of operand 5's one block is entry `256 r + c` of its argument, at every point. -/
theorem blk5 (c : Dev nD) (t : Fin cfg0.N) (y : S1x256x256.Idx) :
    ib5 m c t y
      = (m ((c : Thread nD τ).loc main_arg5) : S65536.Idx → Elt F .f32)
          (ix1 ⟨(y 1).val * 256 + (y 2).val, by have h1 : (y 1).val < 256 := (y 1).isLt; have h2 : (y 2).val < 256 := (y 2).isLt; omega⟩) := by
  obtain ⟨e0, e1, e2⟩ := idx5 t
  show V m c main_v4 (((cfg0.win 5).blk t).view.emb y) = _
  rw [pre5 m c]
  refine shapeCast_apply (s := S65536) (t := S1x256x256) _ _ _ _ ?_
  rewrite [Shape.rowMajor_val_three, Shape.rowMajor_val_one]
  show (y 1).val * 256 + (y 2).val
    = ((win0_5.index t (0 : Fin 3) * 1 + 1 * (y 0).val) * 256 + (win0_5.index t (1 : Fin 3) * 256 + 1 * (y 1).val)) * 256 + (win0_5.index t (2 : Fin 3) * 256 + 1 * (y 2).val)
  have h0 : (y 0).val < 1 := (y 0).isLt; have h1 : (y 1).val < 256 := (y 1).isLt; have h2 : (y 2).val < 256 := (y 2).isLt; omega

/-! ## The run -/

/-- Every weakly fair execution of the program terminates with the three flat results at the three whole-array
    functions re-laid row-major, and the arguments unchanged. -/
theorem run : θ_run defs (onTc (τ := τ) (main (F := F))) ⟨m, fun _ => 0, ρ⟩ fun r => ∀ c : Dev nD,
      r.2.mem ((c.tc : Thread nD τ).loc main_v6) = shapeCast S512x65536 (G6 m c) shapeCasts_S512x256x256_S512x65536
      ∧ r.2.mem ((c.tc : Thread nD τ).loc main_v7) = shapeCast S512x65536 (G7 m c) shapeCasts_S512x256x256_S512x65536
      ∧ r.2.mem ((c.tc : Thread nD τ).loc main_v8) = shapeCast S512x65536 (G8 m c) shapeCasts_S512x256x256_S512x65536
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v6 (Pipeline.mem_restRefs_of main_v6 (by decide) (by decide))).trans (tail6 m c),
      ((h c).2 main_v7 (Pipeline.mem_restRefs_of main_v7 (by decide) (by decide))).trans (tail7 m c),
      ((h c).2 main_v8 (Pipeline.mem_restRefs_of main_v8 (by decide) (by decide))).trans (tail8 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KVal

end
-- ==== Proof.LibPairwise.lean ====
/-
  Layout forms read at an index written by coordinates, for arrays that pair every row of one operand with every row of
  another: a middle unit axis added by a shape cast, and a unit axis (the middle one, or the leading one) filled by a
  broadcast. Each is the library's general lemma (a shape cast keeps the row-major position; a broadcast reads `0` on
  the operand's unit axes) at the shapes `[a, c]`, `[a, 1, c]`, `[1, b, c]`, `[a, b, c]`.
-/
import Idealize.ShloMosaic.Lib.Pipeline.Value
import Idealize.ShloMosaic.Lib.ValueIdx

namespace Cert.LibPairwise

open Idealize.ShloMosaic Idealize.ShloMosaic.ValueIdx

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`: every `j` sees
    the same row. (`hb`: the filled axis is a real one; the other two extents may be anything.) -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the whole operand. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibPairwise
-- ==== Proof.LibTrailing.lean ====
/-
  Layout forms read at an index written by coordinates, for per-row quantities kept beside a rank-3 array: trailing
  unit axes added by a shape cast ([a, b] to [a, b, 1], [a] to [a, 1, 1]) and filled again by a broadcast
  ([a, b, 1] to [a, b, c], [a, 1, 1] to [a, b, c]). Each is the library's general lemma (a shape cast keeps the
  row-major position; a broadcast reads `0` on the operand's unit axes) at those shapes.
-/
import Idealize.ShloMosaic.Lib.Pipeline.Value
import Idealize.ShloMosaic.Lib.ValueIdx

namespace Cert.LibTrailing

open Idealize.ShloMosaic Idealize.ShloMosaic.ValueIdx

variable {α : Type}

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: every `k` sees
    the same column entry. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a]` array cast to `[a, 1, 1]` reads, at `(i, u, v)`, the operand at `i`, whatever the unit coordinates. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, 1, 1]` array broadcast to `[a, b, c]` reads, at `(i, j, k)`, the operand at `(i, 0, 0)`: every entry of
    plane `i` sees that plane's one number. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

end Cert.LibTrailing
-- ==== Proof.LibPlaneSum.lean ====
/-
  A sum over the two trailing axes of a rank-3 array, read on the extended reals as ONE sum over the row-major
  position in the plane: the sum of `x (p, j, k)` over all `(j, k)` is the sum over `q < b·c` of `x (p, q / c, q % c)`.
  The pairs `(j, k)` and the positions `q = j·c + k` correspond one to one, and a finite sum does not depend on how
  its terms are listed.
-/
import Idealize.ShloMosaic.PureOps.Ideal.Laws
import Idealize.ShloMosaic.Lib.ValueIdx

namespace Cert.LibPlaneSum

open Idealize.ShloMosaic Idealize.ShloMosaic.ValueIdx

/-- Dropping the two trailing coordinates of `i` gives `p` exactly when `i`'s leading coordinate is `p`. -/
theorem drop_eq_iff {a b c : ℕ} (h : (⟨3, ![a, b, c]⟩ : Shape).Reduces [1, 2] ⟨1, ![a]⟩)
    (i : (⟨3, ![a, b, c]⟩ : Shape).Idx) (p : Fin a) : h.drop i = ix1 p ↔ (i 0).val = p.val := by
  have key : ((h.drop i) 0).val = (i 0).val := rfl
  constructor
  · intro e
    rw [← key, e]
    rfl
  · intro e
    funext d
    match d with
    | ⟨0, _⟩ => exact Fin.ext (key.trans e)

/-- The position `q` of the plane as the pair `(q / c, q % c)` under the leading coordinate `p`. -/
def at_ {a b c : ℕ} (p : Fin a) (q : Fin (b * c)) : (⟨3, ![a, b, c]⟩ : Shape).Idx :=
  have hc : 0 < c := Nat.pos_of_ne_zero (by rintro rfl; exact absurd q.isLt (by simp))
  ix3 p ⟨q.val / c, Nat.div_lt_of_lt_mul (lt_of_lt_of_eq q.isLt (Nat.mul_comm b c))⟩ ⟨q.val % c, Nat.mod_lt _ hc⟩

/-- The sum over the two trailing axes at `p` is the sum over the positions of the plane. -/
theorem reduceAdd_plane {a b c : ℕ} (h : (⟨3, ![a, b, c]⟩ : Shape).Reduces [1, 2] ⟨1, ![a]⟩)
    (x : (⟨3, ![a, b, c]⟩ : Shape).Idx → EReal) (p : Fin a) :
    Ideal.reduceAdd h x (ix1 p) = ∑ q : Fin (b * c), x (at_ p q) := by
  unfold Ideal.reduceAdd
  refine Finset.sum_bij'
    (fun i _ => (⟨(i 1).val * c + (i 2).val, by
      have h1 : (i 1).val < b := (i 1).isLt
      have h2 : (i 2).val < c := (i 2).isLt
      calc (i 1).val * c + (i 2).val < (i 1).val * c + c := by omega
        _ = ((i 1).val + 1) * c := by ring
        _ ≤ b * c := Nat.mul_le_mul_right c h1⟩ : Fin (b * c)))
    (fun q _ => at_ p q) (fun i _ => Finset.mem_univ _) ?_ ?_ ?_ ?_
  · intro q _
    rw [Finset.mem_filter]
    exact ⟨Finset.mem_univ _, (drop_eq_iff h _ p).mpr rfl⟩
  · intro i hi
    rw [Finset.mem_filter] at hi
    have e0 := (drop_eq_iff h i p).mp hi.2
    have h2 : (i 2).val < c := (i 2).isLt
    funext d
    apply Fin.ext
    match d with
    | ⟨0, _⟩ => exact e0.symm
    | ⟨1, _⟩ =>
      show ((i 1).val * c + (i 2).val) / c = (i 1).val
      rw [Nat.mul_comm, Nat.mul_add_div (by omega), Nat.div_eq_of_lt h2, Nat.add_zero]
    | ⟨2, _⟩ =>
      show ((i 1).val * c + (i 2).val) % c = (i 2).val
      rw [Nat.mul_comm, Nat.mul_add_mod, Nat.mod_eq_of_lt h2]
  · intro q _
    apply Fin.ext
    show q.val / c * c + q.val % c = q.val
    exact Nat.div_add_mod' q.val c
  · intro i hi
    rw [Finset.mem_filter] at hi
    have e0 := (drop_eq_iff h i p).mp hi.2
    have h2 : (i 2).val < c := (i 2).isLt
    refine congrArg x (funext fun d => Fin.ext ?_)
    match d with
    | ⟨0, _⟩ => exact e0
    | ⟨1, _⟩ =>
      show (i 1).val = ((i 1).val * c + (i 2).val) / c
      rw [Nat.mul_comm, Nat.mul_add_div (by omega), Nat.div_eq_of_lt h2, Nat.add_zero]
    | ⟨2, _⟩ =>
      show (i 2).val = ((i 1).val * c + (i 2).val) % c
      rw [Nat.mul_comm, Nat.mul_add_mod, Nat.mod_eq_of_lt h2]

end Cert.LibPlaneSum
-- ==== Proof.KPay.lean ====
import proofs.«135125_j50337016709331_2_alg».proof.Proof.Gen.KernelIdeal.Skeleton
import proofs.«135125_j50337016709331_2_alg».proof.Proof.LibPairwise
import proofs.«135125_j50337016709331_2_alg».proof.Proof.LibTrailing
import proofs.«135125_j50337016709331_2_alg».proof.Proof.LibPlaneSum
import Idealize.ShloMosaic.Lib.Pipeline.Value
import Idealize.ShloMosaic.Lib.ValueIdx
import Idealize.ShloMosaic.PureOps.Ideal.Laws

/-!
  The kernel body's arithmetic read at an index, on the extended reals.
-/

noncomputable section

namespace Cert.KernelIdeal.KPay

open Cert.KernelIdeal Cert.KernelIdeal.Gen Idealize.ShloMosaic Idealize.ShloMosaic.ValueIdx
open Cert.LibPairwise Cert.LibTrailing Cert.LibPlaneSum

variable (x0 : FVec Ideal S8x256 .f32) (w a b : FVec Ideal S8x256x256 .f32) (g be : FVec Ideal S1x256x256 .f32)

/-! ## The three stored values at an index

  `w`, `a`, `b` are the blocks of the decay weights and of the two accumulators, `x0` the block of the state, `g` and
  `be` the planes of the scale and the shift. The accumulators' updates are pointwise; the normalized value at
  `(p, r, c)` involves the two sums over the whole plane `p`. -/

/-- The squared weight. -/
theorem pay2_apply (i : S8x256x256.Idx) : k0_pay2 (F := Ideal) w i = w i * w i := by
  unfold k0_pay2
  rw [shapeCast_self]
  rfl

/-- The first accumulator's update: `w² · a` plus the product of the state's entries `r` and `c` of row `p`. -/
theorem pay3_apply (p : Fin 8) (r c : Fin 256) :
    k0_pay3 (F := Ideal) x0 w a (ix3 p r c)
      = w (ix3 p r c) * w (ix3 p r c) * a (ix3 p r c) + x0 (ix2 p r) * x0 (ix2 p c) := by
  unfold k0_pay3
  show k0_pay2 w (ix3 p r c) * (shapeCast S8x256x256 a _) (ix3 p r c) + (broadcastTo S8x256x256 (shapeCast S8x256x1 x0 _) _ (ix3 p r c)) * (broadcastTo S8x256x256 (shapeCast S8x1x256 x0 _) _ (ix3 p r c)) = _
  rw [pay2_apply, shapeCast_self, broadcastTo_ab1_abc_apply, shapeCast_ab_ab1_apply, broadcastTo_a1c_abc_apply, shapeCast_ac_a1c_apply]

/-- The second accumulator's update: `w² · b + 1`. -/
theorem pay4_apply (i : S8x256x256.Idx) :
    k0_pay4 (F := Ideal) w b i = w i * w i * b i + Ideal.ofBits .f32 0x3F800000#32 := by
  unfold k0_pay4
  show k0_pay2 w i * (shapeCast S8x256x256 b _) i + _ = _
  rw [pay2_apply, shapeCast_self]
  rfl

/-- The value before normalization: the first update times the reciprocal square root of the second. -/
def xk : FVec Ideal S8x256x256 .f32 := mulf (k0_pay3 (F := Ideal) x0 w a) (rsqrt (k0_pay4 (F := Ideal) w b))

theorem xk_apply (p : Fin 8) (r c : Fin 256) :
    xk x0 w a b (ix3 p r c)
      = (w (ix3 p r c) * w (ix3 p r c) * a (ix3 p r c) + x0 (ix2 p r) * x0 (ix2 p c))
          * Ideal.rsqrt (w (ix3 p r c) * w (ix3 p r c) * b (ix3 p r c) + Ideal.ofBits .f32 0x3F800000#32) := by
  show k0_pay3 (F := Ideal) x0 w a (ix3 p r c) * Ideal.rsqrt (k0_pay4 (F := Ideal) w b (ix3 p r c)) = _
  rw [pay3_apply, pay4_apply]

/-- The sum of plane `p` of the value before normalization, over the plane's positions, -/
def s1 (p : Fin 8) : EReal := ∑ q : Fin (256 * 256), xk x0 w a b (at_ p q)
/-- and the sum of its squares. -/
def s2 (p : Fin 8) : EReal := ∑ q : Fin (256 * 256), xk x0 w a b (at_ p q) * xk x0 w a b (at_ p q)

/-- The per-plane mean as the body keeps it, on two trailing unit axes: the plane's sum times 2⁻¹⁶. -/
def mu3 : FVec Ideal S8x1x1 .f32 :=
  mulf (shapeCast S8x1x1 (multiReduction (F := Ideal) .add [1, 2] S8 (xk x0 w a b) 0x00000000#32 reduces_S8x256x256_S8 (.inl rfl) rfl) shapeCasts_S8_S8x1x1)
    (broadcast S8x1x1 (FloatOps.ofBits (F := Ideal) .f32 0x37800000#32))
/-- The per-plane mean of squares likewise. -/
def m23 : FVec Ideal S8x1x1 .f32 :=
  mulf (shapeCast S8x1x1 (multiReduction (F := Ideal) .add [1, 2] S8 (mulf (xk x0 w a b) (xk x0 w a b)) 0x00000000#32 reduces_S8x256x256_S8 (.inl rfl) rfl) shapeCasts_S8_S8x1x1)
    (broadcast S8x1x1 (FloatOps.ofBits (F := Ideal) .f32 0x37800000#32))
/-- The per-plane reciprocal standard deviation: the variance as mean of squares minus squared mean, clamped at
    zero, plus ε, under the reciprocal square root. -/
def rs3 : FVec Ideal S8x1x1 .f32 :=
  rsqrt (addf (maximumf (subf (m23 x0 w a b) (mulf (mu3 x0 w a b) (mu3 x0 w a b))) (broadcast S8x1x1 (FloatOps.ofBits (F := Ideal) .f32 0x00000000#32)))
    (broadcast S8x1x1 (FloatOps.ofBits (F := Ideal) .f32 0x3727C5AC#32)))

theorem pay5_eq : k0_pay5 (F := Ideal) x0 w a b
    = mulf (subf (xk x0 w a b) (broadcastTo S8x256x256 (mu3 x0 w a b) broadcasts_S8x1x1_S8x256x256))
        (broadcastTo S8x256x256 (rs3 x0 w a b) broadcasts_S8x1x1_S8x256x256) := rfl

theorem mu3_apply (p : Fin 8) (u v : Fin 1) :
    mu3 x0 w a b (ix3 p u v) = s1 x0 w a b p * Ideal.ofBits .f32 0x37800000#32 := by
  show (shapeCast S8x1x1 (Ideal.reduceAdd reduces_S8x256x256_S8 (xk x0 w a b)) shapeCasts_S8_S8x1x1) (ix3 p u v) * _ = _
  rw [shapeCast_a_a11_apply, reduceAdd_plane]
  rfl

theorem m23_apply (p : Fin 8) (u v : Fin 1) :
    m23 x0 w a b (ix3 p u v) = s2 x0 w a b p * Ideal.ofBits .f32 0x37800000#32 := by
  show (shapeCast S8x1x1 (Ideal.reduceAdd reduces_S8x256x256_S8 (mulf (xk x0 w a b) (xk x0 w a b))) shapeCasts_S8_S8x1x1) (ix3 p u v) * _ = _
  rw [shapeCast_a_a11_apply, reduceAdd_plane]
  rfl

theorem rs3_apply (p : Fin 8) (u v : Fin 1) :
    rs3 x0 w a b (ix3 p u v)
      = Ideal.rsqrt (max (s2 x0 w a b p * Ideal.ofBits .f32 0x37800000#32
            - (s1 x0 w a b p * Ideal.ofBits .f32 0x37800000#32) * (s1 x0 w a b p * Ideal.ofBits .f32 0x37800000#32))
          (Ideal.ofBits .f32 0x00000000#32) + Ideal.ofBits .f32 0x3727C5AC#32) := by
  show Ideal.rsqrt (max (m23 x0 w a b (ix3 p u v) - mu3 x0 w a b (ix3 p u v) * mu3 x0 w a b (ix3 p u v)) _ + _) = _
  rw [m23_apply, mu3_apply]
  rfl

/-- The normalized value at `(p, r, c)`: the value there less the plane's mean, times the plane's reciprocal
    standard deviation. -/
theorem pay5_apply (p : Fin 8) (r c : Fin 256) :
    k0_pay5 (F := Ideal) x0 w a b (ix3 p r c)
      = (xk x0 w a b (ix3 p r c) - s1 x0 w a b p * Ideal.ofBits .f32 0x37800000#32)
          * Ideal.rsqrt (max (s2 x0 w a b p * Ideal.ofBits .f32 0x37800000#32
              - (s1 x0 w a b p * Ideal.ofBits .f32 0x37800000#32) * (s1 x0 w a b p * Ideal.ofBits .f32 0x37800000#32))
            (Ideal.ofBits .f32 0x00000000#32) + Ideal.ofBits .f32 0x3727C5AC#32) := by
  rw [pay5_eq]
  show (xk x0 w a b (ix3 p r c) - broadcastTo S8x256x256 (mu3 x0 w a b) _ (ix3 p r c)) * broadcastTo S8x256x256 (rs3 x0 w a b) _ (ix3 p r c) = _
  rw [broadcastTo_a11_abc_apply, broadcastTo_a11_abc_apply, mu3_apply, rs3_apply]

/-- The stored result at `(p, r, c)`: the normalized value times the scale plus the shift, both at `(r, c)`. -/
theorem pay1_apply (v : FVec Ideal S8x256x256 .f32) (p : Fin 8) (r c : Fin 256) :
    k0_pay1 (F := Ideal) v g be (ix3 p r c)
      = v (ix3 p r c) * g (ix3 (0 : Fin 1) r c) + be (ix3 (0 : Fin 1) r c) := by
  unfold k0_pay1
  show v (ix3 p r c) * broadcastTo S8x256x256 (shapeCast S1x256x256 g _) _ (ix3 p r c) + broadcastTo S8x256x256 (shapeCast S1x256x256 be _) _ (ix3 p r c) = _
  rw [shapeCast_self, shapeCast_self, broadcastTo_1bc_abc_apply, broadcastTo_1bc_abc_apply]

end Cert.KernelIdeal.KPay

end
-- ==== Proof.RefRead.lean ====
import proofs.«135125_j50337016709331_2_alg».proof.Proof.Gen.ReferenceIdeal.Read
import Idealize.ShloMosaic.Lib.ValueIdx
import Idealize.ShloMosaic.PureOps.Ideal.Laws

/-!
  The reference's three results read at an index, on the extended reals. Write `x (B, J)` for the value before
  normalization, `(w² · a + s_r · s_c) · (w² · b + 1)^(-1/2)` with `r = J / 256`, `c = J % 256`. The normalized result
  at `(B, J)` is `(x (B, J) - μ) · (σ² + ε)^(-1/2) · γ_J + β_J`, with `μ` the sum of row `B` of `x` divided by 65536 and
  `σ²` the sum of the squared deviations `(x (B, k) - μ)²` divided by 65536.
-/

noncomputable section

namespace Cert.ReferenceIdeal.RefRead

open Cert.ReferenceIdeal Cert.ReferenceIdeal.Gen Cert.ReferenceIdeal.Read Idealize.ShloMosaic Idealize.ShloMosaic.ValueIdx

variable (a0 : (⟨S512x256, .f32⟩ : BufTy).Contents (Elt Ideal)) (a1 a2 a3 : (⟨S512x65536, .f32⟩ : BufTy).Contents (Elt Ideal))
  (a4 a5 : (⟨S65536, .f32⟩ : BufTy).Contents (Elt Ideal))

/-- The second accumulator's update: `w² · b + 1`. -/
theorem ref11_apply (i : S512x65536.Idx) :
    val_main_v11 (F := Ideal) a2 a3 i = a3 i * a3 i * a2 i + Ideal.ofBits .f32 0x3F800000#32 := by
  rw [val_main_v11_apply, val_main_v9_apply, val_main_v6_apply, val_main_v10_apply, val_main_cst_apply]
  rfl

/-- The first accumulator's update: `w² · a` plus the product of the state's entries `J / 256` and `J % 256` of row `B`. -/
theorem ref8_apply (B : Fin 512) (J : Fin 65536) :
    val_main_v8 (F := Ideal) a0 a1 a3 (ix2 B J)
      = a3 (ix2 B J) * a3 (ix2 B J) * a1 (ix2 B J)
        + a0 (ix2 B ⟨J.val / 256, by have := J.isLt; omega⟩) * a0 (ix2 B ⟨J.val % 256, Nat.mod_lt _ (by decide)⟩) := by
  rw [val_main_v8_apply, val_main_v7_apply, val_main_v6_apply, val_main_v5_apply, val_main_v4_apply, val_main_v2_apply,
    val_main_v3_apply, val_main_v0_apply, val_main_v1_apply]
  have hB : B.val < 512 := B.isLt
  have hJ : J.val < 65536 := J.isLt
  have e1 : idx_main_v0 (idx_main_v2 (idx_main_v5 (ix2 B J))) = ix2 B ⟨J.val / 256, by omega⟩ :=
    funext fun d => Fin.ext (by
      match d with
      | ⟨0, _⟩ => show (B.val * 65536 + J.val) / 65536 = B.val; omega
      | ⟨1, _⟩ => show (B.val * 65536 + J.val) / 256 % 256 = J.val / 256; omega)
  have e2 : idx_main_v1 (idx_main_v3 (idx_main_v5 (ix2 B J))) = ix2 B ⟨J.val % 256, Nat.mod_lt _ (by decide)⟩ :=
    funext fun d => Fin.ext (by
      match d with
      | ⟨0, _⟩ => show (B.val * 65536 + J.val) / 65536 = B.val; omega
      | ⟨1, _⟩ => show (B.val * 65536 + J.val) % 256 = J.val % 256; omega)
  rw [e1, e2]
  rfl

/-- The value before normalization. -/
theorem ref13_apply (B : Fin 512) (J : Fin 65536) :
    val_main_v13 (F := Ideal) a0 a1 a2 a3 (ix2 B J)
      = (a3 (ix2 B J) * a3 (ix2 B J) * a1 (ix2 B J)
          + a0 (ix2 B ⟨J.val / 256, by have := J.isLt; omega⟩) * a0 (ix2 B ⟨J.val % 256, Nat.mod_lt _ (by decide)⟩))
        * Ideal.rsqrt (a3 (ix2 B J) * a3 (ix2 B J) * a2 (ix2 B J) + Ideal.ofBits .f32 0x3F800000#32) := by
  rw [val_main_v13_apply, val_main_v12_apply, ref8_apply, ref11_apply]
  rfl

/-- The row mean: the row's sum of the value before normalization, from zero, divided by 65536. -/
theorem ref17_apply (B : Fin 512) (u : Fin 1) :
    val_main_v17 (F := Ideal) a0 a1 a2 a3 (ix2 B u)
      = Ideal.div (Ideal.ofBits .f32 0x00000000#32 + ∑ k : Fin 65536, val_main_v13 (F := Ideal) a0 a1 a2 a3 (ix2 B k))
          (Ideal.ofBits .f32 0x47800000#32) := by
  rw [val_main_v17_apply, val_main_v15_apply, val_main_v14_apply, val_main_v16_apply, val_main_cst_1_apply, val_main_cst_0_apply]
  have e : ∀ k : Fin 65536, idx_main_v14 (idx_main_v15 (ix2 B u)) k = ix2 B k := fun k =>
    funext fun d => Fin.ext (by match d with | ⟨0, _⟩ => rfl | ⟨1, _⟩ => rfl)
  simp only [e]
  rfl

/-- The row variance: the row's sum of squared deviations from the row mean, from zero, divided by 65536. -/
theorem ref24_apply (B : Fin 512) (u : Fin 1) :
    val_main_v24 (F := Ideal) a0 a1 a2 a3 (ix2 B u)
      = Ideal.div (Ideal.ofBits .f32 0x00000000#32
          + ∑ k : Fin 65536, (val_main_v13 (F := Ideal) a0 a1 a2 a3 (ix2 B k) - val_main_v17 (F := Ideal) a0 a1 a2 a3 (ix2 B (0 : Fin 1)))
              * (val_main_v13 (F := Ideal) a0 a1 a2 a3 (ix2 B k) - val_main_v17 (F := Ideal) a0 a1 a2 a3 (ix2 B (0 : Fin 1))))
          (Ideal.ofBits .f32 0x47800000#32) := by
  rw [val_main_v24_apply, val_main_v22_apply, val_main_v21_apply, val_main_v23_apply, val_main_cst_3_apply, val_main_cst_2_apply]
  have e : ∀ k : Fin 65536, idx_main_v21 (idx_main_v22 (ix2 B u)) k = ix2 B k := fun k =>
    funext fun d => Fin.ext (by match d with | ⟨0, _⟩ => rfl | ⟨1, _⟩ => rfl)
  have e18 : ∀ k : Fin 65536, idx_main_v18 (ix2 B k) = ix2 B (0 : Fin 1) := fun k =>
    funext fun d => Fin.ext (by match d with | ⟨0, _⟩ => rfl | ⟨1, _⟩ => rfl)
  simp only [e, val_main_v20_apply, val_main_v19_apply, val_main_v18_apply, e18]
  rfl

/-- The normalized result at `(B, J)`. -/
theorem ref37_apply (B : Fin 512) (J : Fin 65536) :
    val_main_v37 (F := Ideal) a0 a1 a2 a3 a4 a5 (ix2 B J)
      = (val_main_v13 (F := Ideal) a0 a1 a2 a3 (ix2 B J) - val_main_v17 (F := Ideal) a0 a1 a2 a3 (ix2 B (0 : Fin 1)))
          * Ideal.rsqrt (val_main_v24 (F := Ideal) a0 a1 a2 a3 (ix2 B (0 : Fin 1)) + Ideal.ofBits .f32 0x3727C5AC#32)
          * a4 (ix1 J) + a5 (ix1 J) := by
  rw [val_main_v37_apply, val_main_v34_apply, val_main_v31_apply, val_main_v26_apply, val_main_v25_apply, val_main_v30_apply,
    val_main_v29_apply, val_main_v28_apply, val_main_v27_apply, val_main_cst_4_apply, val_main_v33_apply, val_main_v32_apply,
    val_main_v36_apply, val_main_v35_apply]
  have e25 : idx_main_v25 (ix2 B J) = ix2 B (0 : Fin 1) :=
    funext fun d => Fin.ext (by match d with | ⟨0, _⟩ => rfl | ⟨1, _⟩ => rfl)
  have e30 : idx_main_v30 (ix2 B J) = ix2 B (0 : Fin 1) :=
    funext fun d => Fin.ext (by match d with | ⟨0, _⟩ => rfl | ⟨1, _⟩ => rfl)
  have e32 : idx_main_v32 (idx_main_v33 (ix2 B J)) = ix1 J :=
    funext fun d => Fin.ext (by match d with | ⟨0, _⟩ => rfl)
  have e35 : idx_main_v35 (idx_main_v36 (ix2 B J)) = ix1 J :=
    funext fun d => Fin.ext (by match d with | ⟨0, _⟩ => rfl)
  rw [e25, e30, e32, e35]
  rfl

end Cert.ReferenceIdeal.RefRead

end
-- ==== Proof.LibMoments.lean ====
/-
  General lemmas on the extended reals for the first two moments of a family of 65536 numbers, and for the
  finiteness of a normalised affine combination.

  Every float is read at the ideal values, where it is an extended real. Four float words occur:
  the word of 2^-16, the word of 65536, the word of 0 and the word of 1. The statements keep the words as they
  are spelled; each is evaluated once below.

  * mean_eq: dividing a sum (started from the zero word) by the word of 65536 is multiplying it by the word of
    2^-16, on every extended real.
  * var_eq: for finite x_i, i ranging over a type of 65536 elements, with mu = (sum x_i) * 2^-16,
    (sum (x_i - mu)^2) / 65536 = max ((sum x_i^2) * 2^-16 - mu^2) 0:
    the centred second moment is the difference of the moments, and being a mean of squares it is nonnegative,
    so the maximum with 0 changes nothing.
  * pre_finite: for finite a, b, w, p, q with w*w*b + 1 > 0 the number (w*w*a + p*q) * rsqrt (w*w*b + 1) is finite.
-/
import Idealize.ShloMosaic.PureOps.Ideal.Laws

noncomputable section

namespace Cert.LibMoments

open Idealize.ShloMosaic
open scoped BigOperators

/-! ## The four float words -/

/-- The float word 0x37800000 (exponent field 111, zero fraction) denotes the real 2^-16 = 1/65536. -/
theorem ofBits_c16 : Ideal.ofBits .f32 0x37800000#32 = ((1 / 65536 : ℝ) : EReal) := by
  simp [Ideal.ofBits, Ideal.ieee, -EReal.coe_mul]; norm_num

/-- The float word 0x47800000 (exponent field 143, zero fraction) denotes the real 2^16 = 65536. -/
theorem ofBits_N : Ideal.ofBits .f32 0x47800000#32 = ((65536 : ℝ) : EReal) := by
  simp [Ideal.ofBits, Ideal.ieee, -EReal.coe_mul]; norm_num

/-- The float word 0x3F800000 (exponent field 127, zero fraction) denotes the real 1. -/
theorem ofBits_one : Ideal.ofBits .f32 0x3F800000#32 = ((1 : ℝ) : EReal) := by
  simp [Ideal.ofBits, Ideal.ieee, -EReal.coe_mul]; norm_num

/-- The all-zero float word denotes 0, here as the coercion of the real 0. -/
theorem ofBits_zero : Ideal.ofBits .f32 0x00000000#32 = ((0 : ℝ) : EReal) := by
  rw [Ideal.ofBits_zero_f32, EReal.coe_zero]

/-! ## Sums of real numbers inside the extended reals -/

/-- The inclusion of the reals into the extended reals is additive, so it commutes with finite sums. -/
theorem coe_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-! ## The mean -/

/-- The mean: a sum accumulated from the zero word and divided by the word of 65536 is the sum times the
    word of 2^-16. Division by a nonzero real is multiplication by its reciprocal on EVERY extended real,
    the infinities included, so nothing is asked of the x_i. -/
theorem mean_eq {ι : Type*} [Fintype ι] (x : ι → EReal) :
    Ideal.div (Ideal.ofBits .f32 0x00000000#32 + ∑ i, x i) (Ideal.ofBits .f32 0x47800000#32)
      = (∑ i, x i) * Ideal.ofBits .f32 0x37800000#32 := by
  rw [Ideal.ofBits_zero_f32, zero_add, ofBits_N, ofBits_c16, Ideal.div_coe (by norm_num)]

/-! ## The variance -/

/-- In the reals, for n = 65536 numbers r_i with c = 1/n and mu = (sum r_i) * c:
    (sum (r_i - mu)^2) * c = (sum r_i^2) * c - mu^2.
    Expanding the square, sum (r_i - mu)^2 = sum r_i^2 - 2 mu sum r_i + n mu^2, and n c = 1. -/
theorem real_var {ι : Type*} [Fintype ι] (hcard : Fintype.card ι = 65536) (r : ι → ℝ) :
    (∑ i, (r i - (∑ i, r i) * (1 / 65536)) * (r i - (∑ i, r i) * (1 / 65536))) * (1 / 65536)
      = (∑ i, r i * r i) * (1 / 65536) - ((∑ i, r i) * (1 / 65536)) * ((∑ i, r i) * (1 / 65536)) := by
  set S : ℝ := ∑ i, r i with hS
  have h1 : ∀ i, (r i - S * (1 / 65536)) * (r i - S * (1 / 65536))
      = r i * r i - 2 * (S * (1 / 65536)) * r i + (S * (1 / 65536)) * (S * (1 / 65536)) := fun i => by ring
  rw [Finset.sum_congr rfl (fun i _ => h1 i), Finset.sum_add_distrib, Finset.sum_sub_distrib, ← Finset.mul_sum,
    Finset.sum_const, Finset.card_univ, hcard, ← hS, nsmul_eq_mul]
  push_cast
  ring

/-- The centred second moment of real numbers is nonnegative: it is a sum of squares times a positive number. -/
theorem real_var_nonneg {ι : Type*} [Fintype ι] (r : ι → ℝ) (m : ℝ) :
    0 ≤ (∑ i, (r i - m) * (r i - m)) * (1 / 65536) :=
  mul_nonneg (Finset.sum_nonneg fun i _ => mul_self_nonneg _) (by norm_num)

/-- The variance: for FINITE x_i over an index type of 65536 elements, with mu = (sum x_i) * 2^-16,
    (sum (x_i - mu) * (x_i - mu)) / 65536 = max ((sum x_i * x_i) * 2^-16 - mu * mu) 0.
    Both sides are computed in the reals; the left one is real_var's left side, which is nonnegative,
    so the maximum with the zero word is the identity. -/
theorem var_eq {ι : Type*} [Fintype ι] (hcard : Fintype.card ι = 65536) (x : ι → EReal)
    (hx : ∀ i, ∃ r : ℝ, x i = (r : EReal)) :
    Ideal.div (Ideal.ofBits .f32 0x00000000#32
        + ∑ i, (x i - (∑ i, x i) * Ideal.ofBits .f32 0x37800000#32)
            * (x i - (∑ i, x i) * Ideal.ofBits .f32 0x37800000#32)) (Ideal.ofBits .f32 0x47800000#32)
      = max ((∑ i, x i * x i) * Ideal.ofBits .f32 0x37800000#32
          - ((∑ i, x i) * Ideal.ofBits .f32 0x37800000#32) * ((∑ i, x i) * Ideal.ofBits .f32 0x37800000#32))
        (Ideal.ofBits .f32 0x00000000#32) := by
  choose r hr using hx
  obtain rfl : x = fun i => (r i : EReal) := funext hr
  rw [mean_eq, ofBits_c16, Ideal.ofBits_zero_f32]
  simp only [← coe_sum, ← EReal.coe_mul, ← EReal.coe_sub]
  rw [real_var hcard r, max_eq_left]
  rw [← real_var hcard r]
  exact EReal.coe_nonneg.mpr (real_var_nonneg r _)

/-! ## Finiteness of the normalised combination -/

/-- The host's reciprocal square root is the one function rsqrt of the extended reals. -/
theorem hostUnary_rsqrt : Ideal.hostUnary .rsqrt = Ideal.rsqrt := rfl

/-- The reciprocal square root of a positive real is a real, 1 / sqrt t. -/
theorem rsqrt_coe_pos {t : ℝ} (ht : 0 < t) : Ideal.rsqrt (t : EReal) = (((Real.sqrt t)⁻¹ : ℝ) : EReal) := by
  rw [Ideal.rsqrt_coe, if_neg (not_lt.mpr ht.le), if_neg ht.ne']

/-- For finite a, b, w, p, q with w*w*b + 1 above zero, (w*w*a + p*q) * rsqrt (w*w*b + 1) is finite:
    the argument of rsqrt is a positive real, whose reciprocal square root is a real, and sums and products
    of reals are reals. -/
theorem pre_finite (a b w p q : EReal) (ha : ∃ r : ℝ, a = (r : EReal)) (hb : ∃ r : ℝ, b = (r : EReal))
    (hw : ∃ r : ℝ, w = (r : EReal)) (hp : ∃ r : ℝ, p = (r : EReal)) (hq : ∃ r : ℝ, q = (r : EReal))
    (hpos : Ideal.ofBits .f32 0x00000000#32 < w * w * b + Ideal.ofBits .f32 0x3F800000#32) :
    ∃ r : ℝ, (w * w * a + p * q) * Ideal.rsqrt (w * w * b + Ideal.ofBits .f32 0x3F800000#32) = (r : EReal) := by
  obtain ⟨ra, rfl⟩ := ha
  obtain ⟨rb, rfl⟩ := hb
  obtain ⟨rw, rfl⟩ := hw
  obtain ⟨rp, rfl⟩ := hp
  obtain ⟨rq, rfl⟩ := hq
  rw [ofBits_one] at hpos ⊢
  rw [ofBits_zero] at hpos
  simp only [← EReal.coe_mul, ← EReal.coe_add] at hpos ⊢
  have ht : 0 < rw * rw * rb + 1 := EReal.coe_lt_coe_iff.mp hpos
  rw [rsqrt_coe_pos ht, ← EReal.coe_mul]
  exact ⟨_, rfl⟩

end Cert.LibMoments

end
-- ==== Proof.Bridge.lean ====
import proofs.«135125_j50337016709331_2_alg».proof.Proof.KLayout
import proofs.«135125_j50337016709331_2_alg».proof.Proof.KPay
import proofs.«135125_j50337016709331_2_alg».proof.Proof.RefRead
import proofs.«135125_j50337016709331_2_alg».proof.Proof.LibMoments
import Idealize.ShloMosaic.Lib.Pipeline.Value
import Idealize.ShloMosaic.Lib.ValueIdx

/-!
  The kernel's three flat results are the reference's, index by index, on the extended reals.

  Entry `(B, J)` of a flat result is entry `(B, J / 256, J % 256)` of the `[512, 256, 256]` array, which grid point
  `B / 8` computes at `(B % 8, J / 256, J % 256)` from its blocks; the blocks are the arguments' rows `8 (B / 8) …`, so the
  block entries the body reads are the arguments' entries at `(B, ·)`. The two accumulator updates are then the same
  expressions on both sides. For the normalized result the kernel's plane sums are the reference's row sums (the plane's
  positions are the row's columns), the mean `Σx / 65536` is `Σx · 2⁻¹⁶`, and — the entries `x` being real numbers when
  the inputs are finite and `w² · b + 1 > 0` — the mean of squared deviations is the mean of squares minus the squared
  mean, which is not negative, so clamping it at zero changes nothing.
-/

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.KVal Cert.KernelIdeal.KPay
open Cert.LibPlaneSum (at_)

variable (m : (ℓ : Loc nD τ sig) → Buf (Elt Ideal) ℓ) (c : Dev nD)

/-- The six argument arrays. -/
abbrev A0 : FVec Ideal S512x256 .f32 := m ((c : Thread nD τ).loc main_arg0)
abbrev A1 : FVec Ideal S512x65536 .f32 := m ((c : Thread nD τ).loc main_arg1)
abbrev A2 : FVec Ideal S512x65536 .f32 := m ((c : Thread nD τ).loc main_arg2)
abbrev A3 : FVec Ideal S512x65536 .f32 := m ((c : Thread nD τ).loc main_arg3)
abbrev A4 : FVec Ideal S65536 .f32 := m ((c : Thread nD τ).loc main_arg4)
abbrev A5 : FVec Ideal S65536 .f32 := m ((c : Thread nD τ).loc main_arg5)

/-- The grid point that holds batch row `B`, and the row's place in its blocks. -/
def ptB (B : Fin 512) : Fin cfg0.N := ⟨B.val / 8, by have h := B.isLt; have e : cfg0.N = 64 := N_0; omega⟩
def rowB (B : Fin 512) : Fin 8 := ⟨B.val % 8, Nat.mod_lt _ (by decide)⟩
/-- The plane coordinates of column `J`. -/
def rJ (J : Fin 65536) : Fin 256 := ⟨J.val / 256, by have := J.isLt; omega⟩
def cJ (J : Fin 65536) : Fin 256 := ⟨J.val % 256, Nat.mod_lt _ (by decide)⟩

theorem G6_at (B : Fin 512) (r cc : Fin 256) : G6 m c (ix3 B r cc) = res6 m c (ptB B) (ix3 (rowB B) r cc) := rfl
theorem G7_at (B : Fin 512) (r cc : Fin 256) : G7 m c (ix3 B r cc) = res7 m c (ptB B) (ix3 (rowB B) r cc) := rfl
theorem G8_at (B : Fin 512) (r cc : Fin 256) : G8 m c (ix3 B r cc) = res8 m c (ptB B) (ix3 (rowB B) r cc) := rfl

/-! ## The block entries are the arguments' entries of row `B` -/

theorem rd0 (B : Fin 512) (r : Fin 256) : ib0 m c (ptB B) (ix2 (rowB B) r) = A0 m c (ix2 B r) := by
  rw [blk0]
  refine congrArg _ (funext fun d => Fin.ext ?_)
  match d with
  | ⟨0, _⟩ => show B.val / 8 * 8 + B.val % 8 = B.val; omega
  | ⟨1, _⟩ => rfl
theorem rd1 (B : Fin 512) (J : Fin 65536) : ib1 m c (ptB B) (ix3 (rowB B) (rJ J) (cJ J)) = A1 m c (ix2 B J) := by
  rw [blk1]
  refine congrArg _ (funext fun d => Fin.ext ?_)
  match d with
  | ⟨0, _⟩ => show B.val / 8 * 8 + B.val % 8 = B.val; omega
  | ⟨1, _⟩ => show J.val / 256 * 256 + J.val % 256 = J.val; omega
theorem rd2 (B : Fin 512) (J : Fin 65536) : ib2 m c (ptB B) (ix3 (rowB B) (rJ J) (cJ J)) = A2 m c (ix2 B J) := by
  rw [blk2]
  refine congrArg _ (funext fun d => Fin.ext ?_)
  match d with
  | ⟨0, _⟩ => show B.val / 8 * 8 + B.val % 8 = B.val; omega
  | ⟨1, _⟩ => show J.val / 256 * 256 + J.val % 256 = J.val; omega
theorem rd3 (B : Fin 512) (J : Fin 65536) : ib3 m c (ptB B) (ix3 (rowB B) (rJ J) (cJ J)) = A3 m c (ix2 B J) := by
  rw [blk3]
  refine congrArg _ (funext fun d => Fin.ext ?_)
  match d with
  | ⟨0, _⟩ => show B.val / 8 * 8 + B.val % 8 = B.val; omega
  | ⟨1, _⟩ => show J.val / 256 * 256 + J.val % 256 = J.val; omega
theorem rd4 (t : Fin cfg0.N) (J : Fin 65536) : ib4 m c t (ix3 (0 : Fin 1) (rJ J) (cJ J)) = A4 m c (ix1 J) := by
  rw [blk4]
  refine congrArg _ (funext fun d => Fin.ext ?_)
  match d with
  | ⟨0, _⟩ => show J.val / 256 * 256 + J.val % 256 = J.val; omega
theorem rd5 (t : Fin cfg0.N) (J : Fin 65536) : ib5 m c t (ix3 (0 : Fin 1) (rJ J) (cJ J)) = A5 m c (ix1 J) := by
  rw [blk5]
  refine congrArg _ (funext fun d => Fin.ext ?_)
  match d with
  | ⟨0, _⟩ => show J.val / 256 * 256 + J.val % 256 = J.val; omega

/-- A flat result at `(B, J)` is the `[512, 256, 256]` array at `(B, J / 256, J % 256)`. -/
theorem flat_at (G : S512x256x256.Idx → EReal) (B : Fin 512) (J : Fin 65536) :
    shapeCast S512x65536 G shapeCasts_S512x256x256_S512x65536 (ix2 B J) = G (ix3 B (rJ J) (cJ J)) :=
  shapeCast_apply (s := S512x256x256) (t := S512x65536) G _ (ix2 B J) (ix3 B (rJ J) (cJ J)) (by
    rewrite [Shape.rowMajor_val_three, Shape.rowMajor_val_two]
    show (B.val * 256 + J.val / 256) * 256 + J.val % 256 = B.val * 65536 + J.val
    have := J.isLt; omega)

/-! ## The two accumulator updates -/

theorem out7 : shapeCast S512x65536 (G7 m c) shapeCasts_S512x256x256_S512x65536
    = Cert.ReferenceIdeal.Read.val_main_v8 (F := Ideal) (A0 m c) (A1 m c) (A3 m c) := by
  funext i
  obtain ⟨B, J, rfl⟩ : ∃ (B : Fin 512) (J : Fin 65536), i = ix2 B J := ⟨i 0, i 1, eq_ix2 i⟩
  rw [Cert.ReferenceIdeal.RefRead.ref8_apply, flat_at, G7_at]
  show k0_pay3 (F := Ideal) (ib0 m c (ptB B)) (ib3 m c (ptB B)) (ib1 m c (ptB B)) (ix3 (rowB B) (rJ J) (cJ J)) = _
  rw [pay3_apply, rd3, rd1, rd0, rd0]
  rfl

theorem out8 : shapeCast S512x65536 (G8 m c) shapeCasts_S512x256x256_S512x65536
    = Cert.ReferenceIdeal.Read.val_main_v11 (F := Ideal) (A2 m c) (A3 m c) := by
  funext i
  obtain ⟨B, J, rfl⟩ : ∃ (B : Fin 512) (J : Fin 65536), i = ix2 B J := ⟨i 0, i 1, eq_ix2 i⟩
  rw [Cert.ReferenceIdeal.RefRead.ref11_apply, flat_at, G8_at]
  show k0_pay4 (F := Ideal) (ib3 m c (ptB B)) (ib2 m c (ptB B)) (ix3 (rowB B) (rJ J) (cJ J)) = _
  rw [pay4_apply, rd3, rd2]

/-! ## The normalized result -/

theorem h256 : 256 * 256 = 65536 := by norm_num

/-- The reference's value before normalization, along row `B`. -/
abbrev xr (B : Fin 512) (k : Fin 65536) : EReal :=
  Cert.ReferenceIdeal.Read.val_main_v13 (F := Ideal) (A0 m c) (A1 m c) (A2 m c) (A3 m c) (ix2 B k)

/-- The kernel's value before normalization at position `q` of plane `B % 8` of point `B / 8` is the reference's at
    column `q` of row `B`. -/
theorem xrow (B : Fin 512) (J : Fin 65536) :
    xk (ib0 m c (ptB B)) (ib3 m c (ptB B)) (ib1 m c (ptB B)) (ib2 m c (ptB B)) (ix3 (rowB B) (rJ J) (cJ J)) = xr m c B J := by
  show _ = Cert.ReferenceIdeal.Read.val_main_v13 (F := Ideal) (A0 m c) (A1 m c) (A2 m c) (A3 m c) (ix2 B J)
  rw [xk_apply, Cert.ReferenceIdeal.RefRead.ref13_apply, rd3, rd1, rd2, rd0, rd0]
  rfl

theorem s1_eq (B : Fin 512) :
    s1 (ib0 m c (ptB B)) (ib3 m c (ptB B)) (ib1 m c (ptB B)) (ib2 m c (ptB B)) (rowB B) = ∑ k : Fin 65536, xr m c B k := by
  unfold s1
  exact Fintype.sum_equiv (finCongr h256) _ _ (fun q => xrow m c B (finCongr h256 q))

theorem s2_eq (B : Fin 512) :
    s2 (ib0 m c (ptB B)) (ib3 m c (ptB B)) (ib1 m c (ptB B)) (ib2 m c (ptB B)) (rowB B) = ∑ k : Fin 65536, xr m c B k * xr m c B k := by
  unfold s2
  exact Fintype.sum_equiv (finCongr h256) _ _ (fun q => by
    show xk _ _ _ _ (at_ (rowB B) q) * xk _ _ _ _ (at_ (rowB B) q) = _
    have e := xrow m c B (finCongr h256 q)
    exact congrArg₂ (· * ·) e e)

variable (hf0 : ∀ i, ∃ r : ℝ, A0 m c i = (r : EReal)) (hf1 : ∀ i, ∃ r : ℝ, A1 m c i = (r : EReal))
  (hf2 : ∀ i, ∃ r : ℝ, A2 m c i = (r : EReal)) (hf3 : ∀ i, ∃ r : ℝ, A3 m c i = (r : EReal))
  (hpos : ∀ i, Ideal.ofBits .f32 0x00000000#32 < A3 m c i * A3 m c i * A2 m c i + Ideal.ofBits .f32 0x3F800000#32)

include hf0 hf1 hf2 hf3 hpos in
/-- With finite inputs and `w² · b + 1 > 0`, every value before normalization is a real number. -/
theorem xr_real (B : Fin 512) (k : Fin 65536) : ∃ r : ℝ, xr m c B k = (r : EReal) := by
  show ∃ r : ℝ, Cert.ReferenceIdeal.Read.val_main_v13 (F := Ideal) (A0 m c) (A1 m c) (A2 m c) (A3 m c) (ix2 B k) = (r : EReal)
  rw [Cert.ReferenceIdeal.RefRead.ref13_apply]
  exact Cert.LibMoments.pre_finite _ _ _ _ _ (hf1 _) (hf2 _) (hf3 _) (hf0 _) (hf0 _) (hpos _)

include hf0 hf1 hf2 hf3 hpos in
theorem out6 : shapeCast S512x65536 (G6 m c) shapeCasts_S512x256x256_S512x65536
    = Cert.ReferenceIdeal.Read.val_main_v37 (F := Ideal) (A0 m c) (A1 m c) (A2 m c) (A3 m c) (A4 m c) (A5 m c) := by
  funext i
  obtain ⟨B, J, rfl⟩ : ∃ (B : Fin 512) (J : Fin 65536), i = ix2 B J := ⟨i 0, i 1, eq_ix2 i⟩
  have hmean : Cert.ReferenceIdeal.Read.val_main_v17 (F := Ideal) (A0 m c) (A1 m c) (A2 m c) (A3 m c) (ix2 B (0 : Fin 1))
      = (∑ k : Fin 65536, xr m c B k) * Ideal.ofBits .f32 0x37800000#32 := by
    rw [Cert.ReferenceIdeal.RefRead.ref17_apply]
    exact Cert.LibMoments.mean_eq (fun k => xr m c B k)
  have hvar : Cert.ReferenceIdeal.Read.val_main_v24 (F := Ideal) (A0 m c) (A1 m c) (A2 m c) (A3 m c) (ix2 B (0 : Fin 1))
      = max ((∑ k : Fin 65536, xr m c B k * xr m c B k) * Ideal.ofBits .f32 0x37800000#32
          - ((∑ k : Fin 65536, xr m c B k) * Ideal.ofBits .f32 0x37800000#32) * ((∑ k : Fin 65536, xr m c B k) * Ideal.ofBits .f32 0x37800000#32))
        (Ideal.ofBits .f32 0x00000000#32) := by
    rw [Cert.ReferenceIdeal.RefRead.ref24_apply, hmean]
    exact Cert.LibMoments.var_eq (Fintype.card_fin _) (fun k => xr m c B k) (xr_real m c hf0 hf1 hf2 hf3 hpos B)
  rw [Cert.ReferenceIdeal.RefRead.ref37_apply, hmean, hvar, flat_at, G6_at]
  show k0_pay1 (F := Ideal) (k0_pay5 (F := Ideal) (ib0 m c (ptB B)) (ib3 m c (ptB B)) (ib1 m c (ptB B)) (ib2 m c (ptB B))) (ib4 m c (ptB B)) (ib5 m c (ptB B)) (ix3 (rowB B) (rJ J) (cJ J)) = _
  rw [pay1_apply, pay5_apply, xrow, s1_eq, s2_eq, rd4, rd5]

end Cert.Bridge

end
-- ==== Proof.PreFacts.lean ====
/-
  The precondition, opened. The printed predicate is a conjunction, over one-bit words, of six
  statements "every entry x of the array satisfies |x| < +∞" and of the statement "every entry of
  (a3 · a3) · a2 + 1 is above 0". Read at the scalar result's one index, the conjunction being 1 makes each
  conjunct 1; a conjunct is a reduction by "and" over all axes, so each compared element is 1; and at
  the extended reals |x| = max x (-x) < ⊤ says x is neither ⊤ nor ⊥, that is, x is a real.
  Every theorem takes any proof of the function's shape facts (they are propositions).
-/
import proofs.«135125_j50337016709331_2_alg».proof.Pre_finite_inputs
import proofs.«135125_j50337016709331_2_alg».proof.Proof.Gen.Pre_finite_inputs
import Idealize.ShloMosaic.PureOps.Ideal.Laws
import Idealize.ShloMosaic.Lib.ReduceAll
import Idealize.ShloMosaic.Lib.ValueIdx

noncomputable section

namespace Cert.PreFacts

open Idealize.ShloMosaic Idealize.ShloMosaic.ValueIdx
open Cert.Pre_finite_inputs

variable [Cert.Pre_finite_inputs.Facts]

/-- The scalar shape has one index. -/
instance subsingleton_S_ : Subsingleton S_.Idx := ⟨fun a b => funext fun d => d.elim0⟩

/-- The word 0x7F800000 (sign clear, exponent all ones, fraction zero) denotes +∞. -/
theorem ofBits_inf : Ideal.ofBits .f32 0x7F800000#32 = ⊤ := by
  simp [Ideal.ofBits, Ideal.ieee]

/-- A one-bit word made from a Boolean is 1 exactly when the Boolean is true. -/
theorem ofBool_eq_one (b : Bool) : BitVec.ofBool b = 1#1 ↔ b = true := by cases b <;> decide

/-- The comparison "less than" answers 1 exactly when x < y. -/
theorem cmp_olt_eq_one (x y : EReal) : Ideal.cmp .olt x y = 1#1 ↔ x < y := by
  unfold Ideal.cmp
  rw [ofBool_eq_one, decide_eq_true_eq]

/-- The comparison "greater than" answers 1 exactly when y < x. -/
theorem cmp_ogt_eq_one (x y : EReal) : Ideal.cmp .ogt x y = 1#1 ↔ y < x := by
  unfold Ideal.cmp
  rw [ofBool_eq_one, decide_eq_true_eq]

/-- An extended real whose absolute value max x (-x) is strictly below +∞ is a real:
    at ⊤ the maximum is ⊤, at ⊥ it is -⊥ = ⊤, and ⊤ is not below ⊤. -/
theorem real_of_abs_lt (x : EReal)
    (hx : Ideal.cmp .olt (max x (-x)) (Ideal.ofBits .f32 0x7F800000#32) = 1#1) : ∃ r : ℝ, x = (r : EReal) := by
  rw [ofBits_inf, cmp_olt_eq_one] at hx
  induction x using EReal.rec with
  | bot => simp at hx
  | coe r => exact ⟨r, rfl⟩
  | top => simp at hx

section Decode

variable {a0 : FVec Ideal S512x256 .f32} {a1 a2 a3 : FVec Ideal S512x65536 .f32} {a4 a5 : FVec Ideal S65536 .f32}

/-- The precondition decoded into its seven conjuncts, each read at every index of the array it ranges
    over: six comparisons |x| < +∞ and the comparison (a3 · a3) · a2 + 1 > 0. -/
theorem conjuncts (h : Cert.Pre_finite_inputs.fn (F := Ideal) a0 a1 a2 a3 a4 a5 = (fun _ => 1#1)) :
    (∀ i, Ideal.cmp .olt (max (a0 i) (-(a0 i))) (Ideal.ofBits .f32 0x7F800000#32) = 1#1) ∧
    (∀ i, Ideal.cmp .olt (max (a1 i) (-(a1 i))) (Ideal.ofBits .f32 0x7F800000#32) = 1#1) ∧
    (∀ i, Ideal.cmp .olt (max (a2 i) (-(a2 i))) (Ideal.ofBits .f32 0x7F800000#32) = 1#1) ∧
    (∀ i, Ideal.cmp .olt (max (a3 i) (-(a3 i))) (Ideal.ofBits .f32 0x7F800000#32) = 1#1) ∧
    (∀ i, Ideal.cmp .olt (max (a4 i) (-(a4 i))) (Ideal.ofBits .f32 0x7F800000#32) = 1#1) ∧
    (∀ i, Ideal.cmp .olt (max (a5 i) (-(a5 i))) (Ideal.ofBits .f32 0x7F800000#32) = 1#1) ∧
    (∀ i, Ideal.cmp .ogt ((a3 i * a3 i) * a2 i + Ideal.ofBits .f32 0x3F800000#32)
      (Ideal.ofBits .f32 0x00000000#32) = 1#1) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨h0, h1⟩, h2⟩, h3⟩, h4⟩, h5⟩, h6⟩ := e
  exact ⟨fun i => Host.reduce_andi_all _ _ _ _ _ h0 i, fun i => Host.reduce_andi_all _ _ _ _ _ h1 i,
    fun i => Host.reduce_andi_all _ _ _ _ _ h2 i, fun i => Host.reduce_andi_all _ _ _ _ _ h3 i,
    fun i => Host.reduce_andi_all _ _ _ _ _ h4 i, fun i => Host.reduce_andi_all _ _ _ _ _ h5 i,
    fun i => Host.reduce_andi_all _ _ _ _ _ h6 i⟩

/-- Every entry of the first array is a real. -/
theorem finite_arg0 (h : Cert.Pre_finite_inputs.fn (F := Ideal) a0 a1 a2 a3 a4 a5 = (fun _ => 1#1)) :
    ∀ i, ∃ r : ℝ, a0 i = (r : EReal) :=
  fun i => real_of_abs_lt _ ((conjuncts h).1 i)

/-- Every entry of the second array is a real. -/
theorem finite_arg1 (h : Cert.Pre_finite_inputs.fn (F := Ideal) a0 a1 a2 a3 a4 a5 = (fun _ => 1#1)) :
    ∀ i, ∃ r : ℝ, a1 i = (r : EReal) :=
  fun i => real_of_abs_lt _ ((conjuncts h).2.1 i)

/-- Every entry of the third array is a real. -/
theorem finite_arg2 (h : Cert.Pre_finite_inputs.fn (F := Ideal) a0 a1 a2 a3 a4 a5 = (fun _ => 1#1)) :
    ∀ i, ∃ r : ℝ, a2 i = (r : EReal) :=
  fun i => real_of_abs_lt _ ((conjuncts h).2.2.1 i)

/-- Every entry of the fourth array is a real. -/
theorem finite_arg3 (h : Cert.Pre_finite_inputs.fn (F := Ideal) a0 a1 a2 a3 a4 a5 = (fun _ => 1#1)) :
    ∀ i, ∃ r : ℝ, a3 i = (r : EReal) :=
  fun i => real_of_abs_lt _ ((conjuncts h).2.2.2.1 i)

/-- Every entry of the fifth array is a real. -/
theorem finite_arg4 (h : Cert.Pre_finite_inputs.fn (F := Ideal) a0 a1 a2 a3 a4 a5 = (fun _ => 1#1)) :
    ∀ i, ∃ r : ℝ, a4 i = (r : EReal) :=
  fun i => real_of_abs_lt _ ((conjuncts h).2.2.2.2.1 i)

/-- Every entry of the sixth array is a real. -/
theorem finite_arg5 (h : Cert.Pre_finite_inputs.fn (F := Ideal) a0 a1 a2 a3 a4 a5 = (fun _ => 1#1)) :
    ∀ i, ∃ r : ℝ, a5 i = (r : EReal) :=
  fun i => real_of_abs_lt _ ((conjuncts h).2.2.2.2.2.1 i)

/-- At every index, (a3 · a3) · a2 plus the word for 1.0 lies strictly above the word for 0.0. -/
theorem pos_beta (h : Cert.Pre_finite_inputs.fn (F := Ideal) a0 a1 a2 a3 a4 a5 = (fun _ => 1#1)) :
    ∀ i, Ideal.ofBits .f32 0x00000000#32 < (a3 i * a3 i) * a2 i + Ideal.ofBits .f32 0x3F800000#32 :=
  fun i => (cmp_ogt_eq_one _ _).1 ((conjuncts h).2.2.2.2.2.2 i)

end Decode

end Cert.PreFacts

end
-- ==== Proof.lean ====
/-
  The certificate of one fused kernel against its reference, on the extended reals.

  Both programs take a state `s` ([512, 256]), two accumulators `a`, `b` and decay weights `w` ([512, 65536], column
  `J` standing for the pair `(r, c) = (J / 256, J % 256)`), and a scale `γ` and a shift `β` ([65536]). They return
  `a' = w² · a + s_r · s_c`, `b' = w² · b + 1` and the row-wise layer normalization of `x = a' · b'^(-1/2)`:
  `(x - μ) · (σ² + ε)^(-1/2) · γ + β`, with `μ` the row's mean of `x`. The reference takes `σ²` as the mean of the squared
  deviations `(x - μ)²`; the kernel, which handles eight rows per grid point as `[8, 256, 256]` blocks, takes it as the
  mean of `x²` less `μ²`, clamped at zero, and multiplies by `2⁻¹⁶` where the reference divides by `65536`.

  The two accumulator updates are the same expression on both sides. The two variances agree when the row's entries
  are real numbers, which is what the precondition gives: every input finite and `w² · b + 1 > 0` (outside which the
  reference's own reciprocal square root is infinite or undefined). The frames of the two kernel programs are the
  generated ones; the reference's frame is its generated run with the results dropped; the idealization rewrote
  nothing, so `preserves` is trivial.
-/
import proofs.«135125_j50337016709331_2_alg».proof.Defs
import proofs.«135125_j50337016709331_2_alg».proof.Proof.Gen.Kernel
import proofs.«135125_j50337016709331_2_alg».proof.Proof.Gen.Kernel.Skeleton
import proofs.«135125_j50337016709331_2_alg».proof.Proof.Gen.Kernel.Launch
import proofs.«135125_j50337016709331_2_alg».proof.Proof.Gen.Kernel.Points
import proofs.«135125_j50337016709331_2_alg».proof.Proof.Gen.Kernel.Frame
import proofs.«135125_j50337016709331_2_alg».proof.Proof.Gen.KernelIdeal
import proofs.«135125_j50337016709331_2_alg».proof.Proof.Gen.KernelIdeal.Skeleton
import proofs.«135125_j50337016709331_2_alg».proof.Proof.Gen.KernelIdeal.Launch
import proofs.«135125_j50337016709331_2_alg».proof.Proof.Gen.KernelIdeal.Points
import proofs.«135125_j50337016709331_2_alg».proof.Proof.Gen.KernelIdeal.Frame
import proofs.«135125_j50337016709331_2_alg».proof.Proof.Gen.ReferenceIdeal
import proofs.«135125_j50337016709331_2_alg».proof.Proof.Gen.Pre_finite_inputs
import proofs.«135125_j50337016709331_2_alg».proof.Proof.Gen.ReferenceIdeal.Run
import proofs.«135125_j50337016709331_2_alg».proof.Proof.Gen.ReferenceIdeal.Read
import proofs.«135125_j50337016709331_2_alg».proof.Proof.KLayout
import proofs.«135125_j50337016709331_2_alg».proof.Proof.Bridge
import proofs.«135125_j50337016709331_2_alg».proof.Proof.PreFacts
import Idealize.ShloMosaic.Adequacy
import Idealize.ShloMosaic.Init

noncomputable section

namespace Cert.Proof

open Idealize.ShloMosaic Idealize.SL.Sem

/-- The two idealized programs, run from memories that agree on the arguments, end with equal results: the
    reference's three result functions of the arguments. The kernel's run leaves its flat results at the whole-array
    functions of its blocks, which are those functions under the precondition; the reference's run leaves them by
    definition. -/
theorem algebraic : Cert.algebraic_KernelIdeal_ReferenceIdeal := by
  intro m ρ m' ρ' hpre hagree
  refine ⟨fun c => Cert.ReferenceIdeal.Read.val_main_v37 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      fun c => Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)),
      fun c => Cert.ReferenceIdeal.Read.val_main_v11 (F := Ideal)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.KVal.run (F := Ideal) m ρ)
    obtain ⟨h6, h7, h8, hargs⟩ := h c
    have hp := hpre c
    exact ⟨h6.trans (Cert.Bridge.out6 m c (Cert.PreFacts.finite_arg0 hp) (Cert.PreFacts.finite_arg1 hp)
        (Cert.PreFacts.finite_arg2 hp) (Cert.PreFacts.finite_arg3 hp) (Cert.PreFacts.pos_beta hp)),
      h7.trans (Cert.Bridge.out7 m c), h8.trans (Cert.Bridge.out8 m c), hargs⟩
  · refine (θ_run Cert.ReferenceIdeal.defs _ _).mono (fun _ h c => ?_) (Cert.ReferenceIdeal.Value.run (F := Ideal) m' ρ')
    obtain ⟨h37, h8, h11, hargs⟩ := h c
    obtain ⟨g0, g1, g2, g3, g4, g5⟩ := hagree c
    refine ⟨?_, ?_, ?_, hargs⟩
    · rw [h37, Cert.ReferenceIdeal.Read.val_main_v37_eq, g0, g1, g2, g3, g4, g5]
    · rw [h8, g0, g1, g3]
      rfl
    · rw [h11, g2, g3]
      rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
